-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S65536 : Shape := ⟨1, ![65536]⟩
abbrev S100000x128 : Shape := ⟨2, ![100000, 128]⟩
abbrev S50x128 : Shape := ⟨2, ![50, 128]⟩
abbrev S50x2 : Shape := ⟨2, ![50, 2]⟩
abbrev S2x128x128 : Shape := ⟨3, ![2, 128, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50x128 : S_.BroadcastsInDim S50x128 (![] : Fin 0 → Fin S50x128.rank)
  reducesTo_S50x128_S_d0_1 : S50x128.ReducesTo [0, 1] S_
  bcast_S_S50x2 : S_.BroadcastsInDim S50x2 (![] : Fin 0 → Fin S50x2.rank)
  reducesTo_S50x2_S_d0_1 : S50x2.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg12 : FVec F S2x128x128 .f32) (main_arg13 : FVec F S128x128 .f32) (main_arg14 : FVec F S128 .f32) (main_v33 : IVec S_ 1) : IVec S_ 1 :=
  let main_v34 : FVec F S2x128x128 .f32 := Host.absf main_arg12
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg9 : FVec F S128x128 .f32) (main_arg10 : FVec F S128 .f32) (main_arg11 : FVec F S50x2 .f32) (main_arg12 : FVec F S2x128x128 .f32) (main_arg13 : FVec F S128x128 .f32) (main_arg14 : FVec F S128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S128x128 .f32 := Host.absf main_arg9
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S50x2 .f32 := Host.absf main_arg11
  let main_cst_10 : FVec F S_ .f32 := constant S_ .f32 0x7F800000#32
  let main_v30 : FVec F S50x2 .f32 := broadcastInDim S50x2 ![] bcast_S_S50x2 main_cst_10
  let main_v31 : IVec S50x2 1 := cmpf .olt main_v29 main_v30
  let main_c_11 : IVec S_ 1 := constantI S_ 1 1#1
  let main_v32 : IVec S_ 1 := (fun x v => Host.reduce IntOp.andi x v reducesTo_S50x2_S_d0_1 h_S_) main_v31 main_c_11
  let main_v33 : IVec S_ 1 := andi main_v28 main_v32
  fn_part2 (F := F) main_arg12 main_arg13 main_arg14 main_v33

def fn {F : FTy → Type} [FloatOps F] (main_arg0 : IVec S2x1600000 32) (main_arg1 : IVec S1600000 32) (main_arg2 : IVec S65536 32) (main_arg3 : IVec S65536 32) (main_arg4 : IVec S65536 32) (main_arg5 : FVec F S100000x128 .f32) (main_arg6 : FVec F S50x128 .f32) (main_arg7 : FVec F S50x2 .f32) (main_arg8 : FVec F S2x128x128 .f32) (main_arg9 : FVec F S128x128 .f32) (main_arg10 : FVec F S128 .f32) (main_arg11 : FVec F S50x2 .f32) (main_arg12 : FVec F S2x128x128 .f32) (main_arg13 : FVec F S128x128 .f32) (main_arg14 : FVec F S128 .f32) : IVec S_ 1 :=
  let main_v0 : FVec F S100000x128 .f32 := Host.absf main_arg5
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50x128 .f32 := Host.absf main_arg6
  let main_cst_0 : FVec F S_ .f32 := constant S_ .f32 0x7F800000#32
  let main_v5 : FVec F S50x128 .f32 := broadcastInDim S50x128 ![] bcast_S_S50x128 main_cst_0
  let main_v6 : IVec S50x128 1 := cmpf .olt main_v4 main_v5
  let main_c_1 : IVec S_ 1 := constantI S_ 1 1#1
  let main_v7 : IVec S_ 1 := (fun x v => Host.reduce IntOp.andi x v reducesTo_S50x128_S_d0_1 h_S_) main_v6 main_c_1
  let main_v8 : IVec S_ 1 := andi main_v3 main_v7
  let main_v9 : FVec F S50x2 .f32 := Host.absf main_arg7
  let main_cst_2 : FVec F S_ .f32 := constant S_ .f32 0x7F800000#32
  let main_v10 : FVec F S50x2 .f32 := broadcastInDim S50x2 ![] bcast_S_S50x2 main_cst_2
  let main_v11 : IVec S50x2 1 := cmpf .olt main_v9 main_v10
  let main_c_3 : IVec S_ 1 := constantI S_ 1 1#1
  let main_v12 : IVec S_ 1 := (fun x v => Host.reduce IntOp.andi x v reducesTo_S50x2_S_d0_1 h_S_) main_v11 main_c_3
  let main_v13 : IVec S_ 1 := andi main_v8 main_v12
  let main_v14 : FVec F S2x128x128 .f32 := Host.absf main_arg8
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg9 main_arg10 main_arg11 main_arg12 main_arg13 main_arg14 main_v13 main_v16
-- ==== Kernel.lean ====
abbrev S2x1600000 : Shape := ⟨2, ![2, 1600000]⟩
abbrev S1600000 : Shape := ⟨1, ![1600000]⟩
abbrev S65536 : Shape := ⟨1, ![65536]⟩
abbrev S100000x128 : Shape := ⟨2, ![100000, 128]⟩
abbrev S50x128 : Shape := ⟨2, ![50, 128]⟩
abbrev S50x2 : Shape := ⟨2, ![50, 2]⟩
abbrev S2x128x128 : Shape := ⟨3, ![2, 128, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1600000x2 : Shape := ⟨2, ![1600000, 2]⟩
abbrev S2000x128 : Shape := ⟨2, ![2000, 128]⟩
abbrev S2000x1 : Shape := ⟨2, ![2000, 1]⟩
abbrev S1x128x128 : Shape := ⟨3, ![1, 128, 128]⟩
abbrev S1x128 : Shape := ⟨2, ![1, 128]⟩
abbrev S65536x1 : Shape := ⟨2, ![65536, 1]⟩
abbrev S65536x128 : Shape := ⟨2, ![65536, 128]⟩
abbrev S2048x128 : Shape := ⟨2, ![2048, 128]⟩
abbrev S2048x1 : Shape := ⟨2, ![2048, 1]⟩
abbrev S2048x64 : Shape := ⟨2, ![2048, 64]⟩
abbrev S2048 : Shape := ⟨1, ![2048]⟩

abbrev nBuf : Space → Nat
  | .hbm => 121
  | .vmem => 34
  | .smem => 0
  | _ => 0

abbrev bufTy : (tb : Table) → Fin (tcTables nBuf tb) → BufTy
  | .hbm, ⟨0, _⟩ => ⟨S2x1600000, .i32⟩
  | .hbm, ⟨1, _⟩ => ⟨S1600000, .i32⟩
  | .hbm, ⟨2, _⟩ => ⟨S65536, .i32⟩
  | .hbm, ⟨3, _⟩ => ⟨S65536, .i32⟩
  | .hbm, ⟨4, _⟩ => ⟨S65536, .i32⟩
  | .hbm, ⟨5, _⟩ => ⟨S100000x128, .f32⟩
  | .hbm, ⟨6, _⟩ => ⟨S50x128, .f32⟩
  | .hbm, ⟨7, _⟩ => ⟨S50x2, .f32⟩
  | .hbm, ⟨8, _⟩ => ⟨S2x128x128, .f32⟩
  | .hbm, ⟨9, _⟩ => ⟨S128x128, .f32⟩
  | .hbm, ⟨10, _⟩ => ⟨S128, .f32⟩
  | .hbm, ⟨11, _⟩ => ⟨S50x2, .f32⟩
  | .hbm, ⟨12, _⟩ => ⟨S2x128x128, .f32⟩
  | .hbm, ⟨13, _⟩ => ⟨S128x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x2, .f32⟩
  | .hbm, ⟨44, _⟩ => ⟨S1600000x1, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x2, .f32⟩
  | .hbm, ⟨77, _⟩ => ⟨S1600000x1, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1600000x1, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S65536, .i32⟩
  | .hbm, ⟨94, _⟩ => ⟨S65536, .i1⟩
  | .hbm, ⟨95, _⟩ => ⟨S_, .i32⟩
  | .hbm, ⟨96, _⟩ => ⟨S65536, .i32⟩
  | .hbm, ⟨97, _⟩ => ⟨S65536, .i32⟩
  | .hbm, ⟨98, _⟩ => ⟨S65536, .i32⟩
  | .hbm, ⟨99, _⟩ => ⟨S65536x1, .i32⟩
  | .hbm, ⟨100, _⟩ => ⟨S65536x128, .f32⟩
  | .hbm, ⟨101, _⟩ => ⟨S_, .i32⟩
  | .hbm, ⟨102, _⟩ => ⟨S65536, .i32⟩
  | .hbm, ⟨103, _⟩ => ⟨S65536, .i1⟩
  | .hbm, ⟨104, _⟩ => ⟨S_, .i32⟩
  | .hbm, ⟨105, _⟩ => ⟨S65536, .i32⟩
  | .hbm, ⟨106, _⟩ => ⟨S65536, .i32⟩
  | .hbm, ⟨107, _⟩ => ⟨S65536, .i32⟩
  | .hbm, ⟨108, _⟩ => ⟨S65536x1, .i32⟩
  | .hbm, ⟨109, _⟩ => ⟨S65536x128, .f32⟩
  | .hbm, ⟨110, _⟩ => ⟨S_, .i32⟩
  | .hbm, ⟨111, _⟩ => ⟨S65536, .i32⟩
  | .hbm, ⟨112, _⟩ => ⟨S65536, .i1⟩
  | .hbm, ⟨113, _⟩ => ⟨S_, .i32⟩
  | .hbm, ⟨114, _⟩ => ⟨S65536, .i32⟩
  | .hbm, ⟨115, _⟩ => ⟨S65536, .i32⟩
  | .hbm, ⟨116, _⟩ => ⟨S65536, .i32⟩
  | .hbm, ⟨117, _⟩ => ⟨S65536x1, .i32⟩
  | .hbm, ⟨118, _⟩ => ⟨S65536x128, .f32⟩
  | .hbm, ⟨119, _⟩ => ⟨S65536x1, .f32⟩
  | .hbm, ⟨120, _⟩ => ⟨S65536, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2x128x128, .f32⟩
  | .local _ .vmem, ⟨9, _⟩ => ⟨S128x128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S2x128x128, .f32⟩
  | .local _ .vmem, ⟨22, _⟩ => ⟨S128x128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x1, .f32⟩
  | .local _ .vmem, ⟨33, _⟩ => ⟨S2048x1, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  slices_S1600000x2_S1600000x1_0_0 : S1600000x2.Slices ![0, 0] S1600000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S1600000x2_S1600000x1_0_1 : S1600000x2.Slices ![0, 1] S1600000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S65536 : S_.BroadcastsInDim S65536 (![] : Fin 0 → Fin S65536.rank)
  bcast_S65536_S65536x1_0 : S65536.BroadcastsInDim S65536x1 (![0] : Fin 1 → Fin S65536x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x128_o0_0_S2048x64 : S2048x128.Slices ![0, 0] S2048x64
  slices_S2048x128_o0_64_S2048x64 : S2048x128.Slices ![0, 64] S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S65536x1_S65536 : S65536x1.ShapeCasts S65536
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S50x2_S1600000x1_S1600000x2_1_0_n_n_0_1_12_wf : GatherDims.WF S50x2 S1600000x1 S1600000x2 [1] [0] [] [0] [] 1 ![1, 2]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  gather_S100000x128_S65536x1_S65536x128_1_0_n_n_0_1_1128_wf : GatherDims.WF S100000x128 S65536x1 S65536x128 [1] [0] [] [0] [] 1 ![1, 128]
  gather_S50x128_S65536x1_S65536x128_1_0_n_n_0_1_1128_wf : GatherDims.WF S50x128 S65536x1 S65536x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x128.size a ≤ S2x128x128.size a
  hwx0_4 : ∀ i : grid0.Coords, EltTy.bits .f32 = 32 ∨ (Rect.block (s := S2x128x128) S2x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x128x128.size a ≤ S2x128x128.size a
  hwx1_4 : ∀ i : grid1.Coords, EltTy.bits .f32 = 32 ∨ (Rect.block (s := S2x128x128) S2x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S65536x128.size a
  hwx2_0 : ∀ i : grid2.Coords, EltTy.bits .f32 = 32 ∨ (Rect.block (s := S65536x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S65536x128.size a
  hwx2_1 : ∀ i : grid2.Coords, EltTy.bits .f32 = 32 ∨ (Rect.block (s := S65536x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S65536x128.size a
  hwx2_2 : ∀ i : grid2.Coords, EltTy.bits .f32 = 32 ∨ (Rect.block (s := S65536x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S65536x1.size a
  hwx2_3 : ∀ i : grid2.Coords, EltTy.bits .f32 = 32 ∨ (Rect.block (s := S65536x1) S2048x1.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S50x2_S1600000x1_S1600000x2_1_0_n_n_0_1_12 : GatherDims S50x2 S1600000x1 S1600000x2 where
  offsetDims := [1]
  collapsedSliceDims := [0]
  operandBatchingDims := []
  startIndicesBatchingDims := []
  startIndexMap := [0]
  indexVectorDim := 1
  sliceSizes := ![1, 2]
  wf := gather_S50x2_S1600000x1_S1600000x2_1_0_n_n_0_1_12_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S50x128_S65536x1_S65536x128_1_0_n_n_0_1_1128 : GatherDims S50x128 S65536x1 S65536x128 where
  offsetDims := [1]
  collapsedSliceDims := [0]
  operandBatchingDims := []
  startIndicesBatchingDims := []
  startIndexMap := [0]
  indexVectorDim := 1
  sliceSizes := ![1, 128]
  wf := gather_S50x128_S65536x1_S65536x128_1_0_n_n_0_1_1128_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S2x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v55) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S2x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v69) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v84) S2048x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S65536 : Shape := ⟨1, ![65536]⟩
abbrev S100000x128 : Shape := ⟨2, ![100000, 128]⟩
abbrev S50x128 : Shape := ⟨2, ![50, 128]⟩
abbrev S50x2 : Shape := ⟨2, ![50, 2]⟩
abbrev S2x128x128 : Shape := ⟨3, ![2, 128, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1600000x2 : Shape := ⟨2, ![1600000, 2]⟩
abbrev S100000 : Shape := ⟨1, ![100000]⟩
abbrev S1x128x128 : Shape := ⟨3, ![1, 128, 128]⟩
abbrev S100000x1 : Shape := ⟨2, ![100000, 1]⟩
abbrev S1x128 : Shape := ⟨2, ![1, 128]⟩
abbrev S65536x1 : Shape := ⟨2, ![65536, 1]⟩
abbrev S65536x128 : Shape := ⟨2, ![65536, 128]⟩
abbrev S65536x64 : Shape := ⟨2, ![65536, 64]⟩

abbrev nBuf : Space → Nat
  | .hbm => 186
  | .vmem => 0
  | .smem => 0
  | _ => 0

abbrev hbmTy0_0 (i : Nat) : BufTy := match i % 128 with
  | 0 => ⟨S2x1600000, .i32⟩
  | 1 => ⟨S1600000, .i32⟩
  | 2 => ⟨S65536, .i32⟩
  | 3 => ⟨S65536, .i32⟩
  | 4 => ⟨S65536, .i32⟩
  | 5 => ⟨S100000x128, .f32⟩
  | 6 => ⟨S50x128, .f32⟩
  | 7 => ⟨S50x2, .f32⟩
  | 8 => ⟨S2x128x128, .f32⟩
  | 9 => ⟨S128x128, .f32⟩
  | 10 => ⟨S128, .f32⟩
  | 11 => ⟨S50x2, .f32⟩
  | 12 => ⟨S2x128x128, .f32⟩
  | 13 => ⟨S128x128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x2, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000x128, .f32⟩
  | 45 => ⟨S1600000x1, .f32⟩
  | 46 => ⟨S1600000x128, .f32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S1x128x128, .f32⟩
  | 53 => ⟨S128x128, .f32⟩
  | 54 => ⟨S100000x128, .f32⟩
  | 55 => ⟨S100000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S1x128x128, .f32⟩
  | 64 => ⟨S128x128, .f32⟩
  | 65 => ⟨S100000x128, .f32⟩
  | 66 => ⟨S100000x128, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x2, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S100000x128, .f32⟩
  | 107 => ⟨S1600000x1, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S1x128x128, .f32⟩
  | 115 => ⟨S128x128, .f32⟩
  | 116 => ⟨S100000x128, .f32⟩
  | 117 => ⟨S100000x128, .f32⟩
  | 118 => ⟨S1600000x1, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S1x128x128, .f32⟩
  | 126 => ⟨S128x128, .f32⟩
  | 127 => ⟨S100000x128, .f32⟩
  | _ => ⟨S2x1600000, .i32⟩

abbrev hbmTy0_1 (i : Nat) : BufTy := match i % 128 with
  | 0 => ⟨S100000x128, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x128, .f32⟩
  | 21 => ⟨S_, .i32⟩
  | 22 => ⟨S65536, .i32⟩
  | 23 => ⟨S65536, .i1⟩
  | 24 => ⟨S_, .i32⟩
  | 25 => ⟨S65536, .i32⟩
  | 26 => ⟨S65536, .i32⟩
  | 27 => ⟨S65536, .i32⟩
  | 28 => ⟨S65536x1, .i32⟩
  | 29 => ⟨S65536x128, .f32⟩
  | 30 => ⟨S_, .i32⟩
  | 31 => ⟨S65536, .i32⟩
  | 32 => ⟨S65536, .i1⟩
  | 33 => ⟨S_, .i32⟩
  | 34 => ⟨S65536, .i32⟩
  | 35 => ⟨S65536, .i32⟩
  | 36 => ⟨S65536, .i32⟩
  | 37 => ⟨S65536x1, .i32⟩
  | 38 => ⟨S65536x128, .f32⟩
  | 39 => ⟨S65536x64, .f32⟩
  | 40 => ⟨S65536x64, .f32⟩
  | 41 => ⟨S65536x64, .f32⟩
  | 42 => ⟨S65536x64, .f32⟩
  | 43 => ⟨S65536x64, .f32⟩
  | 44 => ⟨S65536x64, .f32⟩
  | 45 => ⟨S65536x64, .f32⟩
  | 46 => ⟨S65536x64, .f32⟩
  | 47 => ⟨S65536x64, .f32⟩
  | 48 => ⟨S65536x64, .f32⟩
  | 49 => ⟨S65536x64, .f32⟩
  | 50 => ⟨S65536x64, .f32⟩
  | 51 => ⟨S65536x64, .f32⟩
  | 52 => ⟨S65536x64, .f32⟩
  | 53 => ⟨S65536x64, .f32⟩
  | 54 => ⟨S65536x64, .f32⟩
  | 55 => ⟨S65536x64, .f32⟩
  | 56 => ⟨S_, .f32⟩
  | 57 => ⟨S65536, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_cst : Ref sig .tc := ⟨.hbm, 78, rfl⟩
abbrev main_call0_v0 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_17 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_18 : Ref sig .tc := ⟨.hbm, 140, rfl⟩
abbrev main_v103 : Ref sig .tc := ⟨.hbm, 141, rfl⟩
abbrev main_v104 : Ref sig .tc := ⟨.hbm, 142, rfl⟩
abbrev main_c_19 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_c_21 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_22 : Ref sig .tc := ⟨.hbm, 158, rfl⟩
abbrev main_v117 : Ref sig .tc := ⟨.hbm, 159, rfl⟩
abbrev main_v118 : Ref sig .tc := ⟨.hbm, 160, rfl⟩
abbrev main_c_23 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_24 : Ref sig .tc := ⟨.hbm, 184, rfl⟩
abbrev main_v141 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S100000x128 : S_.BroadcastsInDim S100000x128 (![] : Fin 0 → Fin S100000x128.rank)
  slices_S1600000x2_S1600000x1_0_0 : S1600000x2.Slices ![0, 0] S1600000x1
  bcast_S1600000x1_S1600000x128_0_1 : S1600000x1.BroadcastsInDim S1600000x128 (![0, 1] : Fin 2 → Fin S1600000x128.rank)
  slices_S2x128x128_S1x128x128_0_0_0 : S2x128x128.Slices ![0, 0, 0] S1x128x128
  shapeCasts_S1x128x128_S128x128 : S1x128x128.ShapeCasts S128x128
  slices_S1600000x2_S1600000x1_0_1 : S1600000x2.Slices ![0, 1] S1600000x1
  slices_S2x128x128_S1x128x128_1_0_0 : S2x128x128.Slices ![1, 0, 0] S1x128x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S65536 : S_.BroadcastsInDim S65536 (![] : Fin 0 → Fin S65536.rank)
  bcast_S65536_S65536x1_0 : S65536.BroadcastsInDim S65536x1 (![0] : Fin 1 → Fin S65536x1.rank)
  slices_S65536x128_S65536x64_0_0 : S65536x128.Slices ![0, 0] S65536x64
  slices_S65536x128_S65536x64_0_64 : S65536x128.Slices ![0, 64] S65536x64
  reducesTo_S65536x64_S65536_d1 : S65536x64.ReducesTo [1] S65536
  h_S_ : 0 < S_.numel
  gather_S100000x128_S1600000x1_S1600000x128_1_0_n_n_0_1_1128_wf : GatherDims.WF S100000x128 S1600000x1 S1600000x128 [1] [0] [] [0] [] 1 ![1, 128]
  gather_S50x2_S1600000x1_S1600000x2_1_0_n_n_0_1_12_wf : GatherDims.WF S50x2 S1600000x1 S1600000x2 [1] [0] [] [0] [] 1 ![1, 2]
  scatter_S100000_S1600000x1_S1600000_n_0_0_1_wf : ScatterDims.WF S100000 S1600000x1 S1600000 [] [0] [0] 1
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S65536x1_S65536x128_1_0_n_n_0_1_1128_wf : GatherDims.WF S100000x128 S65536x1 S65536x128 [1] [0] [] [0] [] 1 ![1, 128]
  gather_S50x128_S65536x1_S65536x128_1_0_n_n_0_1_1128_wf : GatherDims.WF S50x128 S65536x1 S65536x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S50x2_S1600000x1_S1600000x2_1_0_n_n_0_1_12 : GatherDims S50x2 S1600000x1 S1600000x2 where
  offsetDims := [1]
  collapsedSliceDims := [0]
  operandBatchingDims := []
  startIndicesBatchingDims := []
  startIndexMap := [0]
  indexVectorDim := 1
  sliceSizes := ![1, 2]
  wf := gather_S50x2_S1600000x1_S1600000x2_1_0_n_n_0_1_12_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S50x128_S65536x1_S65536x128_1_0_n_n_0_1_1128 : GatherDims S50x128 S65536x1 S65536x128 where
  offsetDims := [1]
  collapsedSliceDims := [0]
  operandBatchingDims := []
  startIndicesBatchingDims := []
  startIndexMap := [0]
  indexVectorDim := 1
  sliceSizes := ![1, 128]
  wf := gather_S50x128_S65536x1_S65536x128_1_0_n_n_0_1_1128_wf

class Facts : Prop extends Facts₀ where

variable [Facts]
-- ==== Proof.KernelRun.lean ====
/-
  The idealized kernel's run with every buffer named.

  The program is three pipelined regions among four stretches of host operations. Its generated frame follows the
  buffers of a core through these seven segments: after the last stretch every unscoped buffer of the core holds the
  last boundary's contents `W7`, a fold through the program from the launch memory. The frame keeps only the argument
  arrays of that reading; here the whole reading is kept, so that the result buffer can be read off it too.
-/
import proofs.«177431_j84275848282313_1_alg».proof.Proof.Gen.KernelIdeal.Frame

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer of every core ends at the
    last boundary's contents. -/
theorem ends_at : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A TensorCore buffer that is not scoped ends at the last boundary's contents. -/
theorem ends_at_ref : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  (θ_run defs _ _).mono (fun r h c b hb => h c _ (mem_uc b hb)) (ends_at m ρ)

end Cert.KernelIdeal.Ends

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.Spec.lean ====
/-
  The two row functions this kernel computes, on the extended reals.

  A graph-convolution layer with two basis matrices: for a node, the two aggregated neighbour rows `a0`, `a1`
  are each multiplied into a column of their basis matrix, the two products are added and divided by the node's
  in-degree (at least one), and the node's own row times a column of the root matrix and a bias entry are added;
  the first layer then takes the larger of that and zero.

  The ComplEx score of a triple of rows (head, relation, tail), each a complex vector stored as 64 real parts
  followed by 64 imaginary parts: the real part of the trilinear product with the tail conjugated, summed over the
  64 coordinates.

  Every sum is a finite sum in the commutative monoid of extended reals, so neither finiteness nor any order of
  summation enters these definitions.
-/
import Idealize.ShloMosaic.PureOps.Ideal
import Idealize.ShloMosaic.PureOps.Ideal.Laws

noncomputable section

namespace Cert.Rgcn

open Idealize.ShloMosaic

/-- The f32 word of 1.0 as an extended real. -/
abbrev oneW : EReal := Ideal.ofBits .f32 0x3F800000#32
/-- The f32 word of 0.0 as an extended real. -/
abbrev zeroW : EReal := Ideal.ofBits .f32 0x00000000#32

/-- The affine part of the layer at one entry: `(a0·b0 + a1·b1) / max(deg, 1) + x·w + bias`. -/
def affAt (a0 a1 x : Fin 128 → EReal) (deg : EReal) (b0 b1 w : Fin 128 → EReal) (bias : EReal) : EReal :=
  (Ideal.div ((∑ k : Fin 128, a0 k * b0 k) + (∑ k : Fin 128, a1 k * b1 k)) (max deg oneW)
    + (∑ k : Fin 128, x k * w k)) + bias

/-- The layer at one entry, with or without the rectifier. -/
def layerAt (relu : Bool) (a0 a1 x : Fin 128 → EReal) (deg : EReal) (b0 b1 w : Fin 128 → EReal) (bias : EReal) : EReal :=
  match relu with
  | true => max (affAt a0 a1 x deg b0 b1 w bias) zeroW
  | false => affAt a0 a1 x deg b0 b1 w bias

/-- Coordinate `k` of the real half of a 128-vector. -/
def lo (k : Fin 64) : Fin 128 := ⟨k.val, by omega⟩
/-- Coordinate `k` of the imaginary half of a 128-vector. -/
def hi (k : Fin 64) : Fin 128 := ⟨64 + k.val, by omega⟩

/-- One coordinate's term of the score: Re(h · r · conj t). -/
def scoreTerm (h r t : Fin 128 → EReal) (k : Fin 64) : EReal :=
  (((h (lo k) * r (lo k)) * t (lo k) + (h (lo k) * r (hi k)) * t (hi k)) + (h (hi k) * r (lo k)) * t (hi k))
    - (h (hi k) * r (hi k)) * t (lo k)

/-- The score of a triple of rows. -/
def scoreAt (h r t : Fin 128 → EReal) : EReal := ∑ k : Fin 64, scoreTerm h r t k

end Cert.Rgcn

end
-- ==== Proof.Body.lean ====
/-
  What each kernel body stores, read at one entry on the extended reals.

  The two layer bodies store, at row p and column q of their block, the layer's row function of row p of the two
  aggregate blocks and of the node block, entry p of the degree column, column q of the two basis matrices and of
  the root matrix, and entry q of the bias: each of the three matrix products into a zero accumulator is the
  row-by-column sum, the degree column spread along the row is the column's entry, and the bias laid out as one row
  and spread down the rows is its entry. A change of float format is the identity here.

  The score body stores, at row p of its one-column block, the sum over the 64 coordinates of the trilinear term of
  the two halves of row p of its three blocks.
-/
import proofs.«177431_j84275848282313_1_alg».proof.Proof.Gen.KernelIdeal.Skeleton
import proofs.«177431_j84275848282313_1_alg».proof.Proof.LibDense
import proofs.«177431_j84275848282313_1_alg».proof.Proof.LibSoftmaxRow
import proofs.«177431_j84275848282313_1_alg».proof.Proof.Spec
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Rgcn

/-- A block of 2000 rows times a 128 × 128 matrix, accumulated from zero: the row-by-column sum. -/
theorem mm_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) :=
  Cert.LibDense.matmul_plain (M := 2000) (K := 128) (N := 128) x w (ix2 p q)

/-- The degree column, at least one, spread along the row. -/
theorem deg_apply (v15 : Vec Ideal S2000x1 .f32) (h : S2000x1.ShapeCasts S2000x1) (h' : S2000x1.Broadcasts S2000x128)
    (p : Fin 2000) (q : Fin 128) :
    broadcastTo S2000x128 (maximumf (shapeCast S2000x1 v15 h) (broadcast S2000x1 (Scalar.ofBits (F := Ideal) .f32 0x3F800000#32))) h' (ix2 p q)
      = max (v15 (ix2 p (0 : Fin 1))) oneW :=
  (Cert.LibSoftmaxRow.broadcastTo_a1_ab_apply _ h' p q).trans
    (congrArg₂ max (congrFun (shapeCast_self v15 h) _) rfl)

/-- The first layer's body at an entry. -/
theorem pay0_apply (v0 v3 : Vec Ideal S2000x128 .f32) (v6 v9 : Vec Ideal S1x128x128 .f32) (v15 : Vec Ideal S2000x1 .f32)
    (v21 : Vec Ideal S2000x128 .f32) (v23 : Vec Ideal S128x128 .f32) (v26 : Vec Ideal S128 .f32) (p : Fin 2000) (q : Fin 128) :
    k0_pay1 v0 v3 v6 v9 v15 v21 v23 v26 (ix2 p q)
      = layerAt true (fun k => v0 (ix2 p k)) (fun k => v3 (ix2 p k)) (fun k => v21 (ix2 p k)) (v15 (ix2 p (0 : Fin 1)))
          (fun k => v6 (ix3 (0 : Fin 1) k q)) (fun k => v9 (ix3 (0 : Fin 1) k q)) (fun k => v23 (ix2 k q)) (v26 (ix1 q)) := by
  unfold k0_pay1 layerAt affAt
  dsimp only
  refine congrArg₂ max (congrArg₂ (· + ·) (congrArg₂ (· + ·) (congrArg₂ Ideal.div (congrArg₂ (· + ·) ?_ ?_) ?_) ?_) ?_) rfl
  · refine (mm_apply _ _ p q).trans (Finset.sum_congr rfl fun k _ => congrArg₂ (· * ·) ?_ ?_)
    · exact congrFun (shapeCast_self v0 _) _
    · exact shapeCast_1ab_ab_apply v6 _ k q
  · refine (mm_apply _ _ p q).trans (Finset.sum_congr rfl fun k _ => congrArg₂ (· * ·) ?_ ?_)
    · exact congrFun (shapeCast_self v3 _) _
    · exact shapeCast_1ab_ab_apply v9 _ k q
  · exact deg_apply v15 _ _ p q
  · exact mm_apply _ _ p q
  · exact Cert.LibDense.bias_row v26 _ _ (ix2 p q)

/-- The second layer's body at an entry: the same without the rectifier. -/
theorem pay1_apply (v0 v3 : Vec Ideal S2000x128 .f32) (v6 v9 : Vec Ideal S1x128x128 .f32) (v15 : Vec Ideal S2000x1 .f32)
    (v21 : Vec Ideal S2000x128 .f32) (v24 : Vec Ideal S128x128 .f32) (v27 : Vec Ideal S128 .f32) (p : Fin 2000) (q : Fin 128) :
    k1_pay1 v0 v3 v6 v9 v15 v21 v24 v27 (ix2 p q)
      = layerAt false (fun k => v0 (ix2 p k)) (fun k => v3 (ix2 p k)) (fun k => v21 (ix2 p k)) (v15 (ix2 p (0 : Fin 1)))
          (fun k => v6 (ix3 (0 : Fin 1) k q)) (fun k => v9 (ix3 (0 : Fin 1) k q)) (fun k => v24 (ix2 k q)) (v27 (ix1 q)) := by
  unfold k1_pay1 layerAt affAt
  dsimp only
  refine congrArg₂ (· + ·) (congrArg₂ (· + ·) (congrArg₂ Ideal.div (congrArg₂ (· + ·) ?_ ?_) ?_) ?_) ?_
  · refine (mm_apply _ _ p q).trans (Finset.sum_congr rfl fun k _ => congrArg₂ (· * ·) ?_ ?_)
    · exact congrFun (shapeCast_self v0 _) _
    · exact shapeCast_1ab_ab_apply v6 _ k q
  · refine (mm_apply _ _ p q).trans (Finset.sum_congr rfl fun k _ => congrArg₂ (· * ·) ?_ ?_)
    · exact congrFun (shapeCast_self v3 _) _
    · exact shapeCast_1ab_ab_apply v9 _ k q
  · exact deg_apply v15 _ _ p q
  · refine (mm_apply _ _ p q).trans (Finset.sum_congr rfl fun k _ => congrArg₂ (· * ·) ?_ rfl)
    exact congrFun (shapeCast_self v21 _) _
  · exact Cert.LibDense.bias_row v27 _ _ (ix2 p q)

/-- The real half of a row of a 2048 × 128 block. -/
theorem lo_apply (v : Vec Ideal S2048x128 .f32) (h : S2048x128.ShapeCasts S2048x128) (h' : S2048x128.Slices ![0, 0] S2048x64)
    (p : Fin 2048) (k : Fin 64) :
    extractStridedSlice S2048x64 ![0, 0] (shapeCast S2048x128 v h) h' (ix2 p k) = v (ix2 p (lo k)) := by
  rw [shapeCast_self]
  exact extractStridedSlice_apply ![0, 0] v h' (ix2 p k) (ix2 p (lo k)) (fun a => match a with
    | ⟨0, _⟩ => by show p.val = 0 + p.val; omega
    | ⟨1, _⟩ => by show k.val = 0 + k.val; omega)

/-- The imaginary half of a row of a 2048 × 128 block. -/
theorem hi_apply (v : Vec Ideal S2048x128 .f32) (h : S2048x128.ShapeCasts S2048x128) (h' : S2048x128.Slices ![0, 64] S2048x64)
    (p : Fin 2048) (k : Fin 64) :
    extractStridedSlice S2048x64 ![0, 64] (shapeCast S2048x128 v h) h' (ix2 p k) = v (ix2 p (hi k)) := by
  rw [shapeCast_self]
  exact extractStridedSlice_apply ![0, 64] v h' (ix2 p k) (ix2 p (hi k)) (fun a => match a with
    | ⟨0, _⟩ => by show p.val = 0 + p.val; omega
    | ⟨1, _⟩ => by show 64 + k.val = 64 + k.val; rfl)

/-- The score body at an entry of its one-column block. -/
theorem pay2_apply (v0 v2 v4 : Vec Ideal S2048x128 .f32) (p : Fin 2048) (u : Fin 1) :
    k2_pay1 v0 v2 v4 (ix2 p u)
      = scoreAt (fun k => v0 (ix2 p k)) (fun k => v2 (ix2 p k)) (fun k => v4 (ix2 p k)) := by
  unfold k2_pay1 scoreAt
  dsimp only
  refine (Cert.LibSoftmaxRow.shapeCast_a_a1_apply _ _ p u).trans
    ((Cert.LibSoftmaxRow.multiReduction_add_row _ _ _ _ _ p).trans (Finset.sum_congr rfl fun k _ => ?_))
  unfold scoreTerm
  refine congrArg₂ (· - ·) (congrArg₂ (· + ·) (congrArg₂ (· + ·)
      (congrArg₂ (· * ·) (congrArg₂ (· * ·) ?_ ?_) ?_) (congrArg₂ (· * ·) (congrArg₂ (· * ·) ?_ ?_) ?_))
      (congrArg₂ (· * ·) (congrArg₂ (· * ·) ?_ ?_) ?_)) (congrArg₂ (· * ·) (congrArg₂ (· * ·) ?_ ?_) ?_)
  · exact lo_apply v0 _ _ p k
  · exact lo_apply v2 _ _ p k
  · exact lo_apply v4 _ _ p k
  · exact lo_apply v0 _ _ p k
  · exact hi_apply v2 _ _ p k
  · exact hi_apply v4 _ _ p k
  · exact hi_apply v0 _ _ p k
  · exact lo_apply v2 _ _ p k
  · exact hi_apply v4 _ _ p k
  · exact hi_apply v0 _ _ p k
  · exact hi_apply v2 _ _ p k
  · exact lo_apply v4 _ _ p k

end Cert.KernelIdeal.Body

end
-- ==== Proof.SpecArr.lean ====
/-
  The layer and the score as whole arrays, and how a block's entry is the array's.

  `layerArr` is the layer's output as one function of its seven input arrays: entry (r, j) is the row function of row r
  of the two aggregates and of the node features, the degree of node r, column j of the two basis matrices and of the
  root matrix, and entry j of the bias. `scoreArr` is the score column: entry (r, 0) is the score of row r of the three
  gathered arrays. An entry depends on one row of each row operand only, which is what lets a block of rows be computed
  by itself (`layer_of_rows`, `score_of_rows`).
-/
import proofs.«177431_j84275848282313_1_alg».proof.Proof.Spec
import Idealize.ShloMosaic.Lib.ValueIdx

noncomputable section

namespace Cert.Rgcn

open Idealize.ShloMosaic Idealize.ShloMosaic.ValueIdx

/-- The layer's output array from its seven input arrays. -/
def layerArr (relu : Bool) (A0 A1 X : (⟨2, ![100000, 128]⟩ : Shape).Idx → EReal) (D : (⟨2, ![100000, 1]⟩ : Shape).Idx → EReal)
    (Bs : (⟨3, ![2, 128, 128]⟩ : Shape).Idx → EReal) (Rt : (⟨2, ![128, 128]⟩ : Shape).Idx → EReal)
    (bias : (⟨1, ![128]⟩ : Shape).Idx → EReal) : (⟨2, ![100000, 128]⟩ : Shape).Idx → EReal := fun i =>
  layerAt relu (fun k => A0 (ix2 (i 0) k)) (fun k => A1 (ix2 (i 0) k)) (fun k => X (ix2 (i 0) k)) (D (ix2 (i 0) (0 : Fin 1)))
    (fun k => Bs (ix3 (0 : Fin 2) k (i 1))) (fun k => Bs (ix3 (1 : Fin 2) k (i 1))) (fun k => Rt (ix2 k (i 1))) (bias (ix1 (i 1)))

/-- The score column from the three gathered arrays. -/
def scoreArr (Hh Rr Tt : (⟨2, ![65536, 128]⟩ : Shape).Idx → EReal) : (⟨2, ![65536, 1]⟩ : Shape).Idx → EReal := fun i =>
  scoreAt (fun k => Hh (ix2 (i 0) k)) (fun k => Rr (ix2 (i 0) k)) (fun k => Tt (ix2 (i 0) k))

/-- The row function of rows that are the arrays' rows is the array's entry. -/
theorem layer_of_rows (relu : Bool) (a0 a1 x : Fin 128 → EReal) (deg : EReal) (b0 b1 w : Fin 128 → EReal) (bs : EReal)
    (A0 A1 X : (⟨2, ![100000, 128]⟩ : Shape).Idx → EReal) (D : (⟨2, ![100000, 1]⟩ : Shape).Idx → EReal)
    (Bs : (⟨3, ![2, 128, 128]⟩ : Shape).Idx → EReal) (Rt : (⟨2, ![128, 128]⟩ : Shape).Idx → EReal)
    (bias : (⟨1, ![128]⟩ : Shape).Idx → EReal) (i : (⟨2, ![100000, 128]⟩ : Shape).Idx)
    (h0 : ∀ k, a0 k = A0 (ix2 (i 0) k)) (h1 : ∀ k, a1 k = A1 (ix2 (i 0) k)) (h2 : ∀ k, x k = X (ix2 (i 0) k))
    (h3 : deg = D (ix2 (i 0) (0 : Fin 1))) (h4 : ∀ k, b0 k = Bs (ix3 (0 : Fin 2) k (i 1)))
    (h5 : ∀ k, b1 k = Bs (ix3 (1 : Fin 2) k (i 1))) (h6 : ∀ k, w k = Rt (ix2 k (i 1))) (h7 : bs = bias (ix1 (i 1))) :
    layerAt relu a0 a1 x deg b0 b1 w bs = layerArr relu A0 A1 X D Bs Rt bias i := by
  unfold layerArr
  rw [funext h0, funext h1, funext h2, h3, funext h4, funext h5, funext h6, h7]

/-- The score of rows that are the arrays' rows is the column's entry. -/
theorem score_of_rows (h r t : Fin 128 → EReal) (Hh Rr Tt : (⟨2, ![65536, 128]⟩ : Shape).Idx → EReal)
    (i : (⟨2, ![65536, 1]⟩ : Shape).Idx)
    (h0 : ∀ k, h k = Hh (ix2 (i 0) k)) (h1 : ∀ k, r k = Rr (ix2 (i 0) k)) (h2 : ∀ k, t k = Tt (ix2 (i 0) k)) :
    scoreAt h r t = scoreArr Hh Rr Tt i := by
  unfold scoreArr
  rw [funext h0, funext h1, funext h2]

end Cert.Rgcn

end
-- ==== Proof.Region0.lean ====
/-
  The first layer's region as one whole-array function.

  The region runs the layer body (with the rectifier) at fifty grid points; point t reads rows 2000 t … 2000 t + 1999
  of the two aggregates, of the node features and of the degree column, the whole basis, root and bias arrays, and
  writes the same rows of the output. An entry of the layer depends on one row of each row operand, so what point t
  writes back is block t of the layer of the whole arrays; the fifty blocks tile the 100000 rows, so the output array
  ends as that layer.
-/
import proofs.«177431_j84275848282313_1_alg».proof.Proof.Gen.KernelIdeal.Frame
import proofs.«177431_j84275848282313_1_alg».proof.Proof.Body
import proofs.«177431_j84275848282313_1_alg».proof.Proof.SpecArr

set_option maxRecDepth 16384

noncomputable section

namespace Cert.KernelIdeal.Region0

open Cert.KernelIdeal Cert.KernelIdeal.Gen Cert.KernelIdeal.Body Cert.Rgcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps over the grid: every row window's block row is the point's and its block column zero; the
    basis, root and bias windows stay at block zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = win0_7.index t (0 : Fin 2) ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 1) = 0
    ∧ win0_7.index t (1 : Fin 2) = 0 ∧ win0_7.index t (0 : Fin 2) ≤ 49 :=
  (by decide +kernel : ∀ t : Fin grid0.N, _)

/-- Every block row is some point's. -/
theorem idx_onto : ∀ q0 : Fin 50, ∃ t : Fin cfg0.N, win0_7.index t = ![q0.val, 0] :=
  (by decide +kernel : ∀ q0 : Fin 50, ∃ t : Fin grid0.N, win0_7.index t = ![q0.val, 0])

set_option maxHeartbeats 1600000 in
/-- What point `t` writes back is block `t` of the layer of the arrays the region found. -/
theorem flushed_eq (c : Dev nD) (t : Fin cfg0.N) :
    (dat0 V c).flushed 7 t = ((cfg0.win 7).blk t).view.read (Elt Ideal)
      (layerArr true (V c main_v28) (V c main_v34) (V c main_arg5) (V c main_v8) (V c main_arg8) (V c main_arg9) (V c main_arg10)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S2000x1) hz2,
    View.ld_unit_zero (S := S128x128) hz2, View.ld_unit_zero (S := S128) hz1]
  obtain ⟨e0, e1, e2, e3, e4, e5, e6, e7, e8, e9, e10, e11, e12, e13, e14, e15⟩ := idx_facts t
  funext j
  show k0_pay1 (iblk0 V c 0 t) (iblk0 V c 1 t) (View.ld (iblk0 V c 4 t) r0_1) (View.ld (iblk0 V c 4 t) r0_2) (iblk0 V c 3 t) (iblk0 V c 2 t) (iblk0 V c 5 t) (iblk0 V c 6 t) j
    = layerArr true (V c main_v28) (V c main_v34) (V c main_arg5) (V c main_v8) (V c main_arg8) (V c main_arg9) (V c main_arg10)
        (((cfg0.win 7).blk t).view.emb j)
  have hj0 : (j 0).val < 2000 := (j 0).isLt
  have hj1 : (j 1).val < 128 := (j 1).isLt
  refine ((congrArg (k0_pay1 (iblk0 V c 0 t) (iblk0 V c 1 t) (View.ld (iblk0 V c 4 t) r0_1) (View.ld (iblk0 V c 4 t) r0_2) (iblk0 V c 3 t) (iblk0 V c 2 t) (iblk0 V c 5 t) (iblk0 V c 6 t)) (eq_ix2 j)).trans
    (pay0_apply (iblk0 V c 0 t) (iblk0 V c 1 t) (View.ld (iblk0 V c 4 t) r0_1) (View.ld (iblk0 V c 4 t) r0_2) (iblk0 V c 3 t) (iblk0 V c 2 t) (iblk0 V c 5 t) (iblk0 V c 6 t) (j 0) (j 1))).trans ?_
  refine layer_of_rows true _ _ _ _ _ _ _ _ (V c main_v28) (V c main_v34) (V c main_arg5) (V c main_v8) (V c main_arg8)
    (V c main_arg9) (V c main_arg10) (((cfg0.win 7).blk t).view.emb j) ?_ ?_ ?_ ?_ ?_ ?_ ?_ ?_
  · intro k
    refine congrArg (V c main_v28) (funext fun a => Fin.ext ?_)
    match a with
    | ⟨0, _⟩ => show win0_0.index t (0 : Fin 2) * 2000 + 1 * (j 0).val = win0_7.index t (0 : Fin 2) * 2000 + 1 * (j 0).val; omega
    | ⟨1, _⟩ => show win0_0.index t (1 : Fin 2) * 128 + 1 * k.val = k.val; omega
  · intro k
    refine congrArg (V c main_v34) (funext fun a => Fin.ext ?_)
    match a with
    | ⟨0, _⟩ => show win0_1.index t (0 : Fin 2) * 2000 + 1 * (j 0).val = win0_7.index t (0 : Fin 2) * 2000 + 1 * (j 0).val; omega
    | ⟨1, _⟩ => show win0_1.index t (1 : Fin 2) * 128 + 1 * k.val = k.val; omega
  · intro k
    refine congrArg (V c main_arg5) (funext fun a => Fin.ext ?_)
    match a with
    | ⟨0, _⟩ => show win0_2.index t (0 : Fin 2) * 2000 + 1 * (j 0).val = win0_7.index t (0 : Fin 2) * 2000 + 1 * (j 0).val; omega
    | ⟨1, _⟩ => show win0_2.index t (1 : Fin 2) * 128 + 1 * k.val = k.val; omega
  · refine congrArg (V c main_v8) (funext fun a => Fin.ext ?_)
    match a with
    | ⟨0, _⟩ => show win0_3.index t (0 : Fin 2) * 2000 + 1 * (j 0).val = win0_7.index t (0 : Fin 2) * 2000 + 1 * (j 0).val; omega
    | ⟨1, _⟩ => show win0_3.index t (1 : Fin 2) * 1 + 1 * 0 = 0; omega
  · intro k
    refine congrArg (V c main_arg8) (funext fun a => Fin.ext ?_)
    match a with
    | ⟨0, _⟩ => show win0_4.index t (0 : Fin 3) * 2 + 1 * (0 + 1 * 0) = 0; omega
    | ⟨1, _⟩ => show win0_4.index t (1 : Fin 3) * 128 + 1 * (0 + 1 * k.val) = k.val; omega
    | ⟨2, _⟩ => show win0_4.index t (2 : Fin 3) * 128 + 1 * (0 + 1 * (j 1).val) = win0_7.index t (1 : Fin 2) * 128 + 1 * (j 1).val; omega
  · intro k
    refine congrArg (V c main_arg8) (funext fun a => Fin.ext ?_)
    match a with
    | ⟨0, _⟩ => show win0_4.index t (0 : Fin 3) * 2 + 1 * (1 + 1 * 0) = 1; omega
    | ⟨1, _⟩ => show win0_4.index t (1 : Fin 3) * 128 + 1 * (0 + 1 * k.val) = k.val; omega
    | ⟨2, _⟩ => show win0_4.index t (2 : Fin 3) * 128 + 1 * (0 + 1 * (j 1).val) = win0_7.index t (1 : Fin 2) * 128 + 1 * (j 1).val; omega
  · intro k
    refine congrArg (V c main_arg9) (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_7.index t (1 : Fin 2) * 128 + 1 * (j 1).val; omega
  · refine congrArg (V c main_arg10) (funext fun a => Fin.ext ?_)
    match a with
    | ⟨0, _⟩ => show win0_6.index t (0 : Fin 1) * 128 + 1 * (j 1).val = win0_7.index t (1 : Fin 2) * 128 + 1 * (j 1).val; omega

/-- An index of the output array is in point `t`'s block iff each coordinate is in the block's range. -/
theorem mem_blk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v35).slice (win0_7.rect t)).set ↔ _
  rw [View.set_slice_whole, Rect.mem_set_unit]
  exact Iff.rfl

/-- The fifty blocks of 2000 rows tile the 100000 rows: row r is in the block of point r / 2000. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The region's output array, after the region, is the layer of the arrays the region found. -/
theorem final (c : Dev nD) :
    (dat0 V c).arrAt 7 cfg0.N
      = layerArr true (V c main_v28) (V c main_v34) (V c main_arg5) (V c main_v8) (V c main_arg8) (V c main_arg9) (V c main_arg10) :=
  (dat0 V c).arrAt_eq_of_cover 7 _ (fun t _ => flushed_eq V c t) cover

end Cert.KernelIdeal.Region0

end
-- ==== Proof.Region1.lean ====
/-
  The second layer's region as one whole-array function.

  The region runs the layer body (without the rectifier) at fifty grid points; point t reads rows 2000 t … 2000 t + 1999
  of the two aggregates, of the first layer's output and of the degree column, the whole basis, root and bias arrays,
  and writes the same rows of the output. An entry of the layer depends on one row of each row operand, so what point t
  writes back is block t of the layer of the whole arrays; the fifty blocks tile the 100000 rows, so the output array
  ends as that layer.
-/
import proofs.«177431_j84275848282313_1_alg».proof.Proof.Gen.KernelIdeal.Frame
import proofs.«177431_j84275848282313_1_alg».proof.Proof.Body
import proofs.«177431_j84275848282313_1_alg».proof.Proof.SpecArr

set_option maxRecDepth 16384

noncomputable section

namespace Cert.KernelIdeal.Region1

open Cert.KernelIdeal Cert.KernelIdeal.Gen Cert.KernelIdeal.Body Cert.Rgcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps over the grid: every row window's block row is the point's and its block column zero; the
    basis, root and bias windows stay at block zero. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = win1_7.index t (0 : Fin 2) ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 1) = 0
    ∧ win1_7.index t (1 : Fin 2) = 0 ∧ win1_7.index t (0 : Fin 2) ≤ 49 :=
  (by decide +kernel : ∀ t : Fin grid1.N, _)

/-- Every block row is some point's. -/
theorem idx_onto : ∀ q0 : Fin 50, ∃ t : Fin cfg1.N, win1_7.index t = ![q0.val, 0] :=
  (by decide +kernel : ∀ q0 : Fin 50, ∃ t : Fin grid1.N, win1_7.index t = ![q0.val, 0])

set_option maxHeartbeats 1600000 in
/-- What point `t` writes back is block `t` of the layer of the arrays the region found. -/
theorem flushed_eq (c : Dev nD) (t : Fin cfg1.N) :
    (dat1 V c).flushed 7 t = ((cfg1.win 7).blk t).view.read (Elt Ideal)
      (layerArr false (V c main_v55) (V c main_v61) (V c main_v35) (V c main_v8) (V c main_arg12) (V c main_arg13) (V c main_arg14)) := by
  show (cfg1.win 7).cut (grid1.coords t) ((dat1 V c).after 7 t) = _
  rw [after1_7]
  unfold out1_7
  rw [View.canon_unit_zero hz2]
  simp only [View.ld_unit_zero (S := S2000x128) hz2, View.ld_unit_zero (S := S2000x1) hz2,
    View.ld_unit_zero (S := S128x128) hz2, View.ld_unit_zero (S := S128) hz1]
  obtain ⟨e0, e1, e2, e3, e4, e5, e6, e7, e8, e9, e10, e11, e12, e13, e14, e15⟩ := idx_facts t
  funext j
  show k1_pay1 (iblk1 V c 0 t) (iblk1 V c 1 t) (View.ld (iblk1 V c 4 t) r1_1) (View.ld (iblk1 V c 4 t) r1_2) (iblk1 V c 3 t) (iblk1 V c 2 t) (iblk1 V c 5 t) (iblk1 V c 6 t) j
    = layerArr false (V c main_v55) (V c main_v61) (V c main_v35) (V c main_v8) (V c main_arg12) (V c main_arg13) (V c main_arg14)
        (((cfg1.win 7).blk t).view.emb j)
  have hj0 : (j 0).val < 2000 := (j 0).isLt
  have hj1 : (j 1).val < 128 := (j 1).isLt
  refine ((congrArg (k1_pay1 (iblk1 V c 0 t) (iblk1 V c 1 t) (View.ld (iblk1 V c 4 t) r1_1) (View.ld (iblk1 V c 4 t) r1_2) (iblk1 V c 3 t) (iblk1 V c 2 t) (iblk1 V c 5 t) (iblk1 V c 6 t)) (eq_ix2 j)).trans
    (pay1_apply (iblk1 V c 0 t) (iblk1 V c 1 t) (View.ld (iblk1 V c 4 t) r1_1) (View.ld (iblk1 V c 4 t) r1_2) (iblk1 V c 3 t) (iblk1 V c 2 t) (iblk1 V c 5 t) (iblk1 V c 6 t) (j 0) (j 1))).trans ?_
  refine layer_of_rows false _ _ _ _ _ _ _ _ (V c main_v55) (V c main_v61) (V c main_v35) (V c main_v8) (V c main_arg12)
    (V c main_arg13) (V c main_arg14) (((cfg1.win 7).blk t).view.emb j) ?_ ?_ ?_ ?_ ?_ ?_ ?_ ?_
  · intro k
    refine congrArg (V c main_v55) (funext fun a => Fin.ext ?_)
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * k.val = k.val; omega
  · intro k
    refine congrArg (V c main_v61) (funext fun a => Fin.ext ?_)
    match a with
    | ⟨0, _⟩ => show win1_1.index t (0 : Fin 2) * 2000 + 1 * (j 0).val = win1_7.index t (0 : Fin 2) * 2000 + 1 * (j 0).val; omega
    | ⟨1, _⟩ => show win1_1.index t (1 : Fin 2) * 128 + 1 * k.val = k.val; omega
  · intro k
    refine congrArg (V c main_v35) (funext fun a => Fin.ext ?_)
    match a with
    | ⟨0, _⟩ => show win1_2.index t (0 : Fin 2) * 2000 + 1 * (j 0).val = win1_7.index t (0 : Fin 2) * 2000 + 1 * (j 0).val; omega
    | ⟨1, _⟩ => show win1_2.index t (1 : Fin 2) * 128 + 1 * k.val = k.val; omega
  · refine congrArg (V c main_v8) (funext fun a => Fin.ext ?_)
    match a with
    | ⟨0, _⟩ => show win1_3.index t (0 : Fin 2) * 2000 + 1 * (j 0).val = win1_7.index t (0 : Fin 2) * 2000 + 1 * (j 0).val; omega
    | ⟨1, _⟩ => show win1_3.index t (1 : Fin 2) * 1 + 1 * 0 = 0; omega
  · intro k
    refine congrArg (V c main_arg12) (funext fun a => Fin.ext ?_)
    match a with
    | ⟨0, _⟩ => show win1_4.index t (0 : Fin 3) * 2 + 1 * (0 + 1 * 0) = 0; omega
    | ⟨1, _⟩ => show win1_4.index t (1 : Fin 3) * 128 + 1 * (0 + 1 * k.val) = k.val; omega
    | ⟨2, _⟩ => show win1_4.index t (2 : Fin 3) * 128 + 1 * (0 + 1 * (j 1).val) = win1_7.index t (1 : Fin 2) * 128 + 1 * (j 1).val; omega
  · intro k
    refine congrArg (V c main_arg12) (funext fun a => Fin.ext ?_)
    match a with
    | ⟨0, _⟩ => show win1_4.index t (0 : Fin 3) * 2 + 1 * (1 + 1 * 0) = 1; omega
    | ⟨1, _⟩ => show win1_4.index t (1 : Fin 3) * 128 + 1 * (0 + 1 * k.val) = k.val; omega
    | ⟨2, _⟩ => show win1_4.index t (2 : Fin 3) * 128 + 1 * (0 + 1 * (j 1).val) = win1_7.index t (1 : Fin 2) * 128 + 1 * (j 1).val; omega
  · intro k
    refine congrArg (V c main_arg13) (funext fun a => Fin.ext ?_)
    match a with
    | ⟨0, _⟩ => show win1_5.index t (0 : Fin 2) * 128 + 1 * k.val = k.val; omega
    | ⟨1, _⟩ => show win1_5.index t (1 : Fin 2) * 128 + 1 * (j 1).val = win1_7.index t (1 : Fin 2) * 128 + 1 * (j 1).val; omega
  · refine congrArg (V c main_arg14) (funext fun a => Fin.ext ?_)
    match a with
    | ⟨0, _⟩ => show win1_6.index t (0 : Fin 1) * 128 + 1 * (j 1).val = win1_7.index t (1 : Fin 2) * 128 + 1 * (j 1).val; omega

/-- An index of the output array is in point `t`'s block iff each coordinate is in the block's range. -/
theorem mem_blk (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v62).slice (win1_7.rect t)).set ↔ _
  rw [View.set_slice_whole, Rect.mem_set_unit]
  exact Iff.rfl

/-- The fifty blocks of 2000 rows tile the 100000 rows: row r is in the block of point r / 2000. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The region's output array, after the region, is the layer of the arrays the region found. -/
theorem final (c : Dev nD) :
    (dat1 V c).arrAt 7 cfg1.N
      = layerArr false (V c main_v55) (V c main_v61) (V c main_v35) (V c main_v8) (V c main_arg12) (V c main_arg13) (V c main_arg14) :=
  (dat1 V c).arrAt_eq_of_cover 7 _ (fun t _ => flushed_eq V c t) cover

end Cert.KernelIdeal.Region1

end
-- ==== Proof.Region2.lean ====
/-
  The score region as one whole-array function.

  The region runs the score body at 32 grid points; point t reads rows 2048 t … 2048 t + 2047 of the three gathered
  arrays (head, relation, tail) and writes the same rows of the one-column output. The score of a row depends on that
  row of each array only, so what point t writes back is block t of the score column of the whole arrays; the 32
  blocks tile the 65536 rows, so the output array ends as that column.
-/
import proofs.«177431_j84275848282313_1_alg».proof.Proof.Gen.KernelIdeal.Frame
import proofs.«177431_j84275848282313_1_alg».proof.Proof.Body
import proofs.«177431_j84275848282313_1_alg».proof.Proof.SpecArr

set_option maxRecDepth 16384

noncomputable section

namespace Cert.KernelIdeal.Region2

open Cert.KernelIdeal Cert.KernelIdeal.Gen Cert.KernelIdeal.Body Cert.Rgcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: every window's block row is the point's, its block column zero. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 31 :=
  (by decide +kernel : ∀ t : Fin grid2.N, _)

/-- Every block row is some point's. -/
theorem idx_onto : ∀ q0 : Fin 32, ∃ t : Fin cfg2.N, win2_3.index t = ![q0.val, 0] :=
  (by decide +kernel : ∀ q0 : Fin 32, ∃ t : Fin grid2.N, win2_3.index t = ![q0.val, 0])

set_option maxHeartbeats 1600000 in
/-- What point `t` writes back is block `t` of the score column of the arrays the region found. -/
theorem flushed_eq (c : Dev nD) (t : Fin cfg2.N) :
    (dat2 V c).flushed 3 t = ((cfg2.win 3).blk t).view.read (Elt Ideal)
      (scoreArr (V c main_v69) (V c main_v83) (V c main_v76)) := by
  show (cfg2.win 3).cut (grid2.coords t) ((dat2 V c).after 3 t) = _
  rw [after2_3]
  unfold out2_3
  rw [View.canon_unit_zero hz2]
  simp only [View.ld_unit_zero (S := S2048x128) hz2]
  obtain ⟨e0, e1, e2, e3, e4, e5, e6, e7⟩ := idx_facts t
  funext j
  show k2_pay1 (iblk2 V c 0 t) (iblk2 V c 1 t) (iblk2 V c 2 t) j
    = scoreArr (V c main_v69) (V c main_v83) (V c main_v76) (((cfg2.win 3).blk t).view.emb j)
  have hj0 : (j 0).val < 2048 := (j 0).isLt
  refine ((congrArg (k2_pay1 (iblk2 V c 0 t) (iblk2 V c 1 t) (iblk2 V c 2 t)) (eq_ix2 j)).trans
    (pay2_apply (iblk2 V c 0 t) (iblk2 V c 1 t) (iblk2 V c 2 t) (j 0) (j 1))).trans ?_
  refine score_of_rows _ _ _ (V c main_v69) (V c main_v83) (V c main_v76) (((cfg2.win 3).blk t).view.emb j) ?_ ?_ ?_
  · intro k
    refine congrArg (V c main_v69) (funext fun a => Fin.ext ?_)
    match a with
    | ⟨0, _⟩ => show win2_0.index t (0 : Fin 2) * 2048 + 1 * (j 0).val = win2_3.index t (0 : Fin 2) * 2048 + 1 * (j 0).val; omega
    | ⟨1, _⟩ => show win2_0.index t (1 : Fin 2) * 128 + 1 * k.val = k.val; omega
  · intro k
    refine congrArg (V c main_v83) (funext fun a => Fin.ext ?_)
    match a with
    | ⟨0, _⟩ => show win2_1.index t (0 : Fin 2) * 2048 + 1 * (j 0).val = win2_3.index t (0 : Fin 2) * 2048 + 1 * (j 0).val; omega
    | ⟨1, _⟩ => show win2_1.index t (1 : Fin 2) * 128 + 1 * k.val = k.val; omega
  · intro k
    refine congrArg (V c main_v76) (funext fun a => Fin.ext ?_)
    match a with
    | ⟨0, _⟩ => show win2_2.index t (0 : Fin 2) * 2048 + 1 * (j 0).val = win2_3.index t (0 : Fin 2) * 2048 + 1 * (j 0).val; omega
    | ⟨1, _⟩ => show win2_2.index t (1 : Fin 2) * 128 + 1 * k.val = k.val; omega

/-- An index of the output array is in point `t`'s block iff each coordinate is in the block's range. -/
theorem mem_blk (t : Fin cfg2.N) (i : S65536x1.Idx) :
    i ∈ ((cfg2.win 3).blk t).view.set ↔ ∀ a : Fin 2, win2_3.index t a * S2048x1.size a ≤ (i a).val ∧ (i a).val < win2_3.index t a * S2048x1.size a + S2048x1.size a := by
  show i ∈ ((View.whole main_v84).slice (win2_3.rect t)).set ↔ _
  rw [View.set_slice_whole, Rect.mem_set_unit]
  exact Iff.rfl

/-- The 32 blocks of 2048 rows tile the 65536 rows: row r is in the block of point r / 2048. -/
theorem cover (i : S65536x1.Idx) :
    ∃ t : Fin cfg2.N, (cfg2.win 3).flush t = true ∧ i ∈ ((cfg2.win 3).blk t).view.set := by
  have hi0 : (i 0).val < 65536 := (i 0).isLt
  have hi1 : (i 1).val < 1 := (i 1).isLt
  obtain ⟨t, ht⟩ := idx_onto ⟨(i 0).val / 2048, by omega⟩
  have q0 : win2_3.index t (0 : Fin 2) = (i 0).val / 2048 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 1 ≤ (i 1).val ∧ (i 1).val < win2_3.index t (1 : Fin 2) * 1 + 1; omega

/-- The region's output array, after the region, is the score column of the arrays the region found. -/
theorem final (c : Dev nD) :
    (dat2 V c).arrAt 3 cfg2.N = scoreArr (V c main_v69) (V c main_v83) (V c main_v76) :=
  (dat2 V c).arrAt_eq_of_cover 3 _ (fun t _ => flushed_eq V c t) cover

end Cert.KernelIdeal.Region2

end
-- ==== Proof.RefValue.lean ====
/-
  The reference's two layers and its score, each read as the whole-array function of the specification.

  The reference adds the two basis products to an array of zeros, divides by the degree column (at least one) spread
  along the rows, adds the root product and the bias row, and (first layer) takes the larger of that and zero; its
  score slices the three gathered arrays into halves, multiplies and adds them coordinate by coordinate and sums each
  row starting from zero. The zero in front of a sum is the neutral element, a matrix product at an entry is the
  row-by-column sum, and every layout operation reads one entry: so each stage is the specification's function of
  the stages before it, with no finiteness used.
-/
import proofs.«177431_j84275848282313_1_alg».proof.Proof.Gen.ReferenceIdeal.Read
import proofs.«177431_j84275848282313_1_alg».proof.Proof.SpecArr

noncomputable section

namespace Cert.ReferenceIdeal.RefValue

open Cert.ReferenceIdeal Cert.ReferenceIdeal.Read Cert.Rgcn
open Idealize.ShloMosaic Idealize.ShloMosaic.ValueIdx

/-- A row of zeros added in front of a value changes nothing: the broadcast zero word is 0. -/
theorem zeros1 (i : S100000x128.Idx) : val_main_v22 (F := Ideal) i = 0 :=
  (val_main_v22_apply i).trans ((val_main_cst_4_apply _).trans Ideal.ofBits_zero_f32)

/-- The product with the first basis matrix at an entry: the row of the aggregate against the matrix's column. -/
theorem basis01 (x0 : (⟨S2x1600000, .i32⟩ : BufTy).Contents (Elt Ideal)) (x1 : (⟨S1600000, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (i : S100000x128.Idx) :
    val_main_v31 (F := Ideal) x0 x1 x5 x7 x8 i
      = ∑ k : Fin 128, val_main_v28 (F := Ideal) x0 x1 x5 x7 (ix2 (i 0) k) * x8 (ix3 (0 : Fin 2) k (i 1)) := by
  rw [val_main_v31_apply]
  refine Finset.sum_congr rfl fun k _ => congrArg₂ (· * ·) (congrArg _ ?_) ?_
  · funext a; match a with | ⟨0, _⟩ => rfl | ⟨1, _⟩ => rfl
  · rw [val_main_v30_apply, val_main_v29_apply]
    refine congrArg x8 (funext fun a => Fin.ext ?_)
    have hk : k.val < 128 := k.isLt
    have hj : (i 1).val < 128 := (i 1).isLt
    match a with
    | ⟨0, _⟩ => rfl
    | ⟨1, _⟩ => show (k.val * 128 + (i 1).val) / 128 % 128 = k.val; omega
    | ⟨2, _⟩ => show (k.val * 128 + (i 1).val) % 128 = (i 1).val; omega

/-- The product with the second basis matrix at an entry. -/
theorem basis11 (x0 : (⟨S2x1600000, .i32⟩ : BufTy).Contents (Elt Ideal)) (x1 : (⟨S1600000, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (i : S100000x128.Idx) :
    val_main_v41 (F := Ideal) x0 x1 x5 x7 x8 i
      = ∑ k : Fin 128, val_main_v38 (F := Ideal) x0 x1 x5 x7 (ix2 (i 0) k) * x8 (ix3 (1 : Fin 2) k (i 1)) := by
  rw [val_main_v41_apply]
  refine Finset.sum_congr rfl fun k _ => congrArg₂ (· * ·) (congrArg _ ?_) ?_
  · funext a; match a with | ⟨0, _⟩ => rfl | ⟨1, _⟩ => rfl
  · rw [val_main_v40_apply, val_main_v39_apply]
    refine congrArg x8 (funext fun a => Fin.ext ?_)
    have hk : k.val < 128 := k.isLt
    have hj : (i 1).val < 128 := (i 1).isLt
    match a with
    | ⟨0, _⟩ => rfl
    | ⟨1, _⟩ => show (k.val * 128 + (i 1).val) / 128 % 128 = k.val; omega
    | ⟨2, _⟩ => show (k.val * 128 + (i 1).val) % 128 = (i 1).val; omega

/-- The divisor at an entry: the node's in-degree, at least one. -/
theorem degree1 (x0 : (⟨S2x1600000, .i32⟩ : BufTy).Contents (Elt Ideal)) (i : S100000x128.Idx) :
    val_main_v46 (F := Ideal) x0 i = max (val_main_v21 (F := Ideal) x0 (ix1 (i 0))) oneW := by
  rw [val_main_v46_apply, val_main_v45_apply, val_main_v44_apply]
  refine congrArg₂ max (congrArg _ ?_) ((val_main_v43_apply _).trans (val_main_cst_7_apply _))
  funext a; match a with | ⟨0, _⟩ => rfl

/-- The bias laid out as a row and spread down the rows, at an entry. -/
theorem biasRow1 (x10 : (⟨S128, .f32⟩ : BufTy).Contents (Elt Ideal)) (i : S100000x128.Idx) :
    val_main_v51 (F := Ideal) x10 i = x10 (ix1 (i 1)) := by
  rw [val_main_v51_apply, val_main_v50_apply]
  refine congrArg x10 ?_
  funext a; match a with | ⟨0, _⟩ => rfl

/-- The first layer of the reference is the layer of its two aggregates, the node features, its degree vector read as
    a column, and the first layer's parameters, with the rectifier. -/
theorem layer1 (x0 : (⟨S2x1600000, .i32⟩ : BufTy).Contents (Elt Ideal)) (x1 : (⟨S1600000, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) :
    val_main_v53 (F := Ideal) x0 x1 x5 x7 x8 x9 x10
      = layerArr true (val_main_v28 (F := Ideal) x0 x1 x5 x7) (val_main_v38 (F := Ideal) x0 x1 x5 x7) x5
          (fun i => val_main_v21 (F := Ideal) x0 (ix1 (i 0))) x8 x9 x10 := by
  funext i
  rw [val_main_v53_apply, val_main_v52_apply, val_main_v49_apply, val_main_v47_apply, val_main_v42_apply, val_main_v32_apply]
  unfold layerArr layerAt affAt
  refine congrArg₂ max (congrArg₂ (· + ·) (congrArg₂ (· + ·) (congrArg₂ Ideal.div (congrArg₂ (· + ·) ?_ ?_) ?_) ?_) ?_) ?_
  · exact (congrArg₂ (· + ·) (zeros1 i) (basis01 x0 x1 x5 x7 x8 i)).trans (zero_add _)
  · exact basis11 x0 x1 x5 x7 x8 i
  · exact degree1 x0 i
  · rw [val_main_v48_apply]
    refine Finset.sum_congr rfl fun k _ => congrArg₂ (· * ·) (congrArg x5 ?_) (congrArg x9 ?_)
    · funext a; match a with | ⟨0, _⟩ => rfl | ⟨1, _⟩ => rfl
    · funext a; match a with | ⟨0, _⟩ => rfl | ⟨1, _⟩ => rfl
  · exact biasRow1 x10 i
  · exact (val_main_call0_v0_apply i).trans (val_main_call0_cst_apply _)

/-- A row of zeros added in front of a value changes nothing: the broadcast zero word is 0. -/
theorem zeros2 (i : S100000x128.Idx) : val_main_v72 (F := Ideal) i = 0 :=
  (val_main_v72_apply i).trans ((val_main_cst_14_apply _).trans Ideal.ofBits_zero_f32)

/-- The product with the first basis matrix at an entry: the row of the aggregate against the matrix's column. -/
theorem basis02 (x0 : (⟨S2x1600000, .i32⟩ : BufTy).Contents (Elt Ideal)) (x1 : (⟨S1600000, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (i : S100000x128.Idx) :
    val_main_v81 (F := Ideal) x0 x1 x5 x7 x8 x9 x10 x11 x12 i
      = ∑ k : Fin 128, val_main_v78 (F := Ideal) x0 x1 x5 x7 x8 x9 x10 x11 (ix2 (i 0) k) * x12 (ix3 (0 : Fin 2) k (i 1)) := by
  rw [val_main_v81_apply]
  refine Finset.sum_congr rfl fun k _ => congrArg₂ (· * ·) (congrArg _ ?_) ?_
  · funext a; match a with | ⟨0, _⟩ => rfl | ⟨1, _⟩ => rfl
  · rw [val_main_v80_apply, val_main_v79_apply]
    refine congrArg x12 (funext fun a => Fin.ext ?_)
    have hk : k.val < 128 := k.isLt
    have hj : (i 1).val < 128 := (i 1).isLt
    match a with
    | ⟨0, _⟩ => rfl
    | ⟨1, _⟩ => show (k.val * 128 + (i 1).val) / 128 % 128 = k.val; omega
    | ⟨2, _⟩ => show (k.val * 128 + (i 1).val) % 128 = (i 1).val; omega

/-- The product with the second basis matrix at an entry. -/
theorem basis12 (x0 : (⟨S2x1600000, .i32⟩ : BufTy).Contents (Elt Ideal)) (x1 : (⟨S1600000, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (i : S100000x128.Idx) :
    val_main_v91 (F := Ideal) x0 x1 x5 x7 x8 x9 x10 x11 x12 i
      = ∑ k : Fin 128, val_main_v88 (F := Ideal) x0 x1 x5 x7 x8 x9 x10 x11 (ix2 (i 0) k) * x12 (ix3 (1 : Fin 2) k (i 1)) := by
  rw [val_main_v91_apply]
  refine Finset.sum_congr rfl fun k _ => congrArg₂ (· * ·) (congrArg _ ?_) ?_
  · funext a; match a with | ⟨0, _⟩ => rfl | ⟨1, _⟩ => rfl
  · rw [val_main_v90_apply, val_main_v89_apply]
    refine congrArg x12 (funext fun a => Fin.ext ?_)
    have hk : k.val < 128 := k.isLt
    have hj : (i 1).val < 128 := (i 1).isLt
    match a with
    | ⟨0, _⟩ => rfl
    | ⟨1, _⟩ => show (k.val * 128 + (i 1).val) / 128 % 128 = k.val; omega
    | ⟨2, _⟩ => show (k.val * 128 + (i 1).val) % 128 = (i 1).val; omega

/-- The divisor at an entry: the node's in-degree, at least one. -/
theorem degree2 (x0 : (⟨S2x1600000, .i32⟩ : BufTy).Contents (Elt Ideal)) (i : S100000x128.Idx) :
    val_main_v96 (F := Ideal) x0 i = max (val_main_v71 (F := Ideal) x0 (ix1 (i 0))) oneW := by
  rw [val_main_v96_apply, val_main_v95_apply, val_main_v94_apply]
  refine congrArg₂ max (congrArg _ ?_) ((val_main_v93_apply _).trans (val_main_cst_17_apply _))
  funext a; match a with | ⟨0, _⟩ => rfl

/-- The bias laid out as a row and spread down the rows, at an entry. -/
theorem biasRow2 (x14 : (⟨S128, .f32⟩ : BufTy).Contents (Elt Ideal)) (i : S100000x128.Idx) :
    val_main_v101 (F := Ideal) x14 i = x14 (ix1 (i 1)) := by
  rw [val_main_v101_apply, val_main_v100_apply]
  refine congrArg x14 ?_
  funext a; match a with | ⟨0, _⟩ => rfl

/-- The second layer of the reference is the layer of its two aggregates, the first layer's output, its degree vector
    read as a column, and the second layer's parameters, without the rectifier. -/
theorem layer2 (x0 : (⟨S2x1600000, .i32⟩ : BufTy).Contents (Elt Ideal)) (x1 : (⟨S1600000, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (x13 : (⟨S128x128, .f32⟩ : BufTy).Contents (Elt Ideal)) (x14 : (⟨S128, .f32⟩ : BufTy).Contents (Elt Ideal)) :
    val_main_v102 (F := Ideal) x0 x1 x5 x7 x8 x9 x10 x11 x12 x13 x14
      = layerArr false (val_main_v78 (F := Ideal) x0 x1 x5 x7 x8 x9 x10 x11) (val_main_v88 (F := Ideal) x0 x1 x5 x7 x8 x9 x10 x11)
          (val_main_v53 (F := Ideal) x0 x1 x5 x7 x8 x9 x10) (fun i => val_main_v71 (F := Ideal) x0 (ix1 (i 0))) x12 x13 x14 := by
  funext i
  rw [val_main_v102_apply, val_main_v99_apply, val_main_v97_apply, val_main_v92_apply, val_main_v82_apply]
  unfold layerArr layerAt affAt
  refine congrArg₂ (· + ·) (congrArg₂ (· + ·) (congrArg₂ Ideal.div (congrArg₂ (· + ·) ?_ ?_) ?_) ?_) ?_
  · exact (congrArg₂ (· + ·) (zeros2 i) (basis02 x0 x1 x5 x7 x8 x9 x10 x11 x12 i)).trans (zero_add _)
  · exact basis12 x0 x1 x5 x7 x8 x9 x10 x11 x12 i
  · exact degree2 x0 i
  · rw [val_main_v98_apply]
    refine Finset.sum_congr rfl fun k _ => congrArg₂ (· * ·) (congrArg _ ?_) (congrArg x13 ?_)
    · funext a; match a with | ⟨0, _⟩ => rfl | ⟨1, _⟩ => rfl
    · funext a; match a with | ⟨0, _⟩ => rfl | ⟨1, _⟩ => rfl
  · exact biasRow2 x14 i

/-- The real half of the gathered head rows. -/
theorem hLo (x0 : (⟨S2x1600000, .i32⟩ : BufTy).Contents (Elt Ideal)) (x1 : (⟨S1600000, .i32⟩ : BufTy).Contents (Elt Ideal)) (x2 : (⟨S65536, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (x13 : (⟨S128x128, .f32⟩ : BufTy).Contents (Elt Ideal)) (x14 : (⟨S128, .f32⟩ : BufTy).Contents (Elt Ideal)) (i : S65536.Idx) (k : Fin 64) :
    val_main_v124 (F := Ideal) x0 x1 x2 x5 x7 x8 x9 x10 x11 x12 x13 x14 (idx_main_v141 i k) = val_main_v109 (F := Ideal) x0 x1 x2 x5 x7 x8 x9 x10 x11 x12 x13 x14 (ix2 (i 0) (lo k)) := by
  rw [val_main_v124_apply]
  refine congrArg _ ?_
  funext a; match a with | ⟨0, _⟩ => rfl | ⟨1, _⟩ => rfl

/-- The imaginary half of the gathered head rows. -/
theorem hHi (x0 : (⟨S2x1600000, .i32⟩ : BufTy).Contents (Elt Ideal)) (x1 : (⟨S1600000, .i32⟩ : BufTy).Contents (Elt Ideal)) (x2 : (⟨S65536, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (x13 : (⟨S128x128, .f32⟩ : BufTy).Contents (Elt Ideal)) (x14 : (⟨S128, .f32⟩ : BufTy).Contents (Elt Ideal)) (i : S65536.Idx) (k : Fin 64) :
    val_main_v125 (F := Ideal) x0 x1 x2 x5 x7 x8 x9 x10 x11 x12 x13 x14 (idx_main_v141 i k) = val_main_v109 (F := Ideal) x0 x1 x2 x5 x7 x8 x9 x10 x11 x12 x13 x14 (ix2 (i 0) (hi k)) := by
  rw [val_main_v125_apply]
  refine congrArg _ ?_
  funext a; match a with | ⟨0, _⟩ => rfl | ⟨1, _⟩ => rfl

/-- The real half of the gathered relation rows. -/
theorem rLo (x3 : (⟨S65536, .i32⟩ : BufTy).Contents (Elt Ideal)) (x6 : (⟨S50x128, .f32⟩ : BufTy).Contents (Elt Ideal)) (i : S65536.Idx) (k : Fin 64) :
    val_main_v126 (F := Ideal) x3 x6 (idx_main_v141 i k) = val_main_v123 (F := Ideal) x3 x6 (ix2 (i 0) (lo k)) := by
  rw [val_main_v126_apply]
  refine congrArg _ ?_
  funext a; match a with | ⟨0, _⟩ => rfl | ⟨1, _⟩ => rfl

/-- The imaginary half of the gathered relation rows. -/
theorem rHi (x3 : (⟨S65536, .i32⟩ : BufTy).Contents (Elt Ideal)) (x6 : (⟨S50x128, .f32⟩ : BufTy).Contents (Elt Ideal)) (i : S65536.Idx) (k : Fin 64) :
    val_main_v127 (F := Ideal) x3 x6 (idx_main_v141 i k) = val_main_v123 (F := Ideal) x3 x6 (ix2 (i 0) (hi k)) := by
  rw [val_main_v127_apply]
  refine congrArg _ ?_
  funext a; match a with | ⟨0, _⟩ => rfl | ⟨1, _⟩ => rfl

/-- The real half of the gathered tail rows. -/
theorem tLo (x0 : (⟨S2x1600000, .i32⟩ : BufTy).Contents (Elt Ideal)) (x1 : (⟨S1600000, .i32⟩ : BufTy).Contents (Elt Ideal)) (x4 : (⟨S65536, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (x13 : (⟨S128x128, .f32⟩ : BufTy).Contents (Elt Ideal)) (x14 : (⟨S128, .f32⟩ : BufTy).Contents (Elt Ideal)) (i : S65536.Idx) (k : Fin 64) :
    val_main_v128 (F := Ideal) x0 x1 x4 x5 x7 x8 x9 x10 x11 x12 x13 x14 (idx_main_v141 i k) = val_main_v116 (F := Ideal) x0 x1 x4 x5 x7 x8 x9 x10 x11 x12 x13 x14 (ix2 (i 0) (lo k)) := by
  rw [val_main_v128_apply]
  refine congrArg _ ?_
  funext a; match a with | ⟨0, _⟩ => rfl | ⟨1, _⟩ => rfl

/-- The imaginary half of the gathered tail rows. -/
theorem tHi (x0 : (⟨S2x1600000, .i32⟩ : BufTy).Contents (Elt Ideal)) (x1 : (⟨S1600000, .i32⟩ : BufTy).Contents (Elt Ideal)) (x4 : (⟨S65536, .i32⟩ : BufTy).Contents (Elt Ideal)) (x5 : (⟨S100000x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (x13 : (⟨S128x128, .f32⟩ : BufTy).Contents (Elt Ideal)) (x14 : (⟨S128, .f32⟩ : BufTy).Contents (Elt Ideal)) (i : S65536.Idx) (k : Fin 64) :
    val_main_v129 (F := Ideal) x0 x1 x4 x5 x7 x8 x9 x10 x11 x12 x13 x14 (idx_main_v141 i k) = val_main_v116 (F := Ideal) x0 x1 x4 x5 x7 x8 x9 x10 x11 x12 x13 x14 (ix2 (i 0) (hi k)) := by
  rw [val_main_v129_apply]
  refine congrArg _ ?_
  funext a; match a with | ⟨0, _⟩ => rfl | ⟨1, _⟩ => rfl

/-- The reference's result is, at triple r, the score of row r of the three gathered arrays: the row sum starts from the
    zero word, which is the neutral element. -/
theorem score (x0 : (⟨S2x1600000, .i32⟩ : BufTy).Contents (Elt Ideal)) (x1 : (⟨S1600000, .i32⟩ : BufTy).Contents (Elt Ideal)) (x2 x3 x4 : (⟨S65536, .i32⟩ : BufTy).Contents (Elt Ideal)) (x5 : (⟨S100000x128, .f32⟩ : BufTy).Contents (Elt Ideal)) (x6 : (⟨S50x128, .f32⟩ : BufTy).Contents (Elt Ideal)) (x7 : (⟨S50x2, .f32⟩ : BufTy).Contents (Elt Ideal)) (x8 : (⟨S2x128x128, .f32⟩ : BufTy).Contents (Elt Ideal)) (x9 : (⟨S128x128, .f32⟩ : BufTy).Contents (Elt Ideal)) (x10 : (⟨S128, .f32⟩ : BufTy).Contents (Elt Ideal)) (x11 : (⟨S50x2, .f32⟩ : BufTy).Contents (Elt Ideal)) (x12 : (⟨S2x128x128, .f32⟩ : BufTy).Contents (Elt Ideal)) (x13 : (⟨S128x128, .f32⟩ : BufTy).Contents (Elt Ideal)) (x14 : (⟨S128, .f32⟩ : BufTy).Contents (Elt Ideal)) :
    val_main_v141 (F := Ideal) x0 x1 x2 x3 x4 x5 x6 x7 x8 x9 x10 x11 x12 x13 x14
      = fun i => scoreArr (val_main_v109 (F := Ideal) x0 x1 x2 x5 x7 x8 x9 x10 x11 x12 x13 x14) (val_main_v123 (F := Ideal) x3 x6)
          (val_main_v116 (F := Ideal) x0 x1 x4 x5 x7 x8 x9 x10 x11 x12 x13 x14) (ix2 (i 0) (0 : Fin 1)) := by
  funext i
  rw [val_main_v141_apply]
  unfold scoreArr scoreAt
  refine (congrArg₂ (· + ·) ((val_main_cst_24_apply _).trans Ideal.ofBits_zero_f32) rfl).trans
    ((zero_add _).trans (Finset.sum_congr rfl fun k _ => ?_))
  rw [val_main_v140_apply, val_main_v137_apply, val_main_v134_apply, val_main_v131_apply, val_main_v130_apply,
    val_main_v133_apply, val_main_v132_apply, val_main_v136_apply, val_main_v135_apply, val_main_v139_apply, val_main_v138_apply]
  unfold scoreTerm
  refine congrArg₂ (· - ·) (congrArg₂ (· + ·) (congrArg₂ (· + ·)
      (congrArg₂ (· * ·) (congrArg₂ (· * ·) ?_ ?_) ?_) (congrArg₂ (· * ·) (congrArg₂ (· * ·) ?_ ?_) ?_))
      (congrArg₂ (· * ·) (congrArg₂ (· * ·) ?_ ?_) ?_)) (congrArg₂ (· * ·) (congrArg₂ (· * ·) ?_ ?_) ?_)
  · exact hLo x0 x1 x2 x5 x7 x8 x9 x10 x11 x12 x13 x14 i k
  · exact rLo x3 x6 i k
  · exact tLo x0 x1 x4 x5 x7 x8 x9 x10 x11 x12 x13 x14 i k
  · exact hLo x0 x1 x2 x5 x7 x8 x9 x10 x11 x12 x13 x14 i k
  · exact rHi x3 x6 i k
  · exact tHi x0 x1 x4 x5 x7 x8 x9 x10 x11 x12 x13 x14 i k
  · exact hHi x0 x1 x2 x5 x7 x8 x9 x10 x11 x12 x13 x14 i k
  · exact rLo x3 x6 i k
  · exact tHi x0 x1 x4 x5 x7 x8 x9 x10 x11 x12 x13 x14 i k
  · exact hHi x0 x1 x2 x5 x7 x8 x9 x10 x11 x12 x13 x14 i k
  · exact rHi x3 x6 i k
  · exact tLo x0 x1 x4 x5 x7 x8 x9 x10 x11 x12 x13 x14 i k

end Cert.ReferenceIdeal.RefValue

end
-- ==== Proof.KernelValue.lean ====
/-
  The idealized kernel's result buffer, read through the program.

  The contents of a core's buffers at the seven segment boundaries form a chain: a stretch of host operations
  replaces a buffer it writes by the operation's value of the contents before it and leaves every other buffer; a
  region replaces its output array by the whole-array function of the arrays it found and leaves every other
  buffer. Walking this chain from the launch memory: the first stretch forms the degree column, the gathered
  source rows and the two scaled aggregates, exactly the reference's terms for them; the first region leaves the
  first layer of these, which the reference's first layer also is; the second stretch, region and the third stretch
  repeat this for the second layer and the three gathers; the last region leaves the score column, and the closing
  reshape reads it as a vector: the reference's result term.
-/
import proofs.«177431_j84275848282313_1_alg».proof.Proof.Gen.KernelIdeal.Frame
import proofs.«177431_j84275848282313_1_alg».proof.Proof.Gen.ReferenceIdeal.Read
import proofs.«177431_j84275848282313_1_alg».proof.Proof.Region0
import proofs.«177431_j84275848282313_1_alg».proof.Proof.Region1
import proofs.«177431_j84275848282313_1_alg».proof.Proof.Region2
import proofs.«177431_j84275848282313_1_alg».proof.Proof.RefValue
import Idealize.ShloMosaic.Lib.ValueLayout

set_option maxRecDepth 16384

noncomputable section

namespace Cert.KernelIdeal.Walk

open Cert.KernelIdeal Cert.KernelIdeal.Gen Cert.Rgcn
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-! ## Two layout readings -/

/-- A vector laid out as a one-column array holds, in row r, its entry r. -/
theorem col_of_vec {a : ℕ} (v : (⟨1, ![a]⟩ : Shape).Idx → EReal) (h : (⟨1, ![a]⟩ : Shape).ShapeCasts ⟨2, ![a, 1]⟩) :
    shapeCast ⟨2, ![a, 1]⟩ v h = fun i => v (ix1 (i 0)) :=
  funext fun i => (congrArg (shapeCast ⟨2, ![a, 1]⟩ v h) (eq_ix2 i)).trans
    (Cert.LibSoftmaxRow.shapeCast_a_a1_apply v h (i 0) (i 1))

/-- A one-column array read as a vector holds, at r, the entry of row r. -/
theorem vec_of_col {a : ℕ} (x : (⟨2, ![a, 1]⟩ : Shape).Idx → EReal) (h : (⟨2, ![a, 1]⟩ : Shape).ShapeCasts ⟨1, ![a]⟩) :
    shapeCast ⟨1, ![a]⟩ x h = fun i => x (ix2 (i 0) (0 : Fin 1)) :=
  funext fun i => shapeCast_apply x h i (ix2 (i 0) (0 : Fin 1)) (by
    rw [Shape.rowMajor_val_two, Shape.rowMajor_val_one]
    show (i 0).val * 1 + 0 = (i 0).val
    omega)

/-! ## After the first stretch of host operations -/

set_option maxHeartbeats 4000000 in
/-- The first aggregate is the reference's. -/
theorem w1_v28 (c : Dev nD) : W1 m ρ c (Proc.devRef .tc main_v28) = val_main_v28 (F := Ideal) (m ((c.tc : Thread nD τ).loc main_arg0)) (m ((c.tc : Thread nD τ).loc main_arg1)) (m ((c.tc : Thread nD τ).loc main_arg5)) (m ((c.tc : Thread nD τ).loc main_arg7)) := by
  show StableHlo.after hostOps0 (W0 m ρ c) (Proc.devRef .tc main_v28) = _
  after_results_simp
  rfl

set_option maxHeartbeats 4000000 in
/-- The second aggregate is the reference's. -/
theorem w1_v34 (c : Dev nD) : W1 m ρ c (Proc.devRef .tc main_v34) = val_main_v38 (F := Ideal) (m ((c.tc : Thread nD τ).loc main_arg0)) (m ((c.tc : Thread nD τ).loc main_arg1)) (m ((c.tc : Thread nD τ).loc main_arg5)) (m ((c.tc : Thread nD τ).loc main_arg7)) := by
  show StableHlo.after hostOps0 (W0 m ρ c) (Proc.devRef .tc main_v34) = _
  after_results_simp
  rfl

set_option maxHeartbeats 4000000 in
/-- The degree column is the reference's degree vector laid out as a column. -/
theorem w1_v8 (c : Dev nD) : W1 m ρ c (Proc.devRef .tc main_v8) = shapeCast S100000x1 (val_main_v21 (F := Ideal) (m ((c.tc : Thread nD τ).loc main_arg0))) shapeCasts_S100000_S100000x1 := by
  show StableHlo.after hostOps0 (W0 m ρ c) (Proc.devRef .tc main_v8) = _
  after_results_simp
  rfl

set_option maxHeartbeats 4000000 in
/-- The source row numbers are the reference's. -/
theorem w1_v1 (c : Dev nD) : W1 m ρ c (Proc.devRef .tc main_v1) = val_main_v1 (F := Ideal) (m ((c.tc : Thread nD τ).loc main_arg0)) := by
  show StableHlo.after hostOps0 (W0 m ρ c) (Proc.devRef .tc main_v1) = _
  after_results_simp
  rfl

set_option maxHeartbeats 4000000 in
/-- The target row numbers are the reference's. -/
theorem w1_v3 (c : Dev nD) : W1 m ρ c (Proc.devRef .tc main_v3) = val_main_v3 (F := Ideal) (m ((c.tc : Thread nD τ).loc main_arg0)) := by
  show StableHlo.after hostOps0 (W0 m ρ c) (Proc.devRef .tc main_v3) = _
  after_results_simp
  rfl

/-- No operation of the first stretch writes argument 1. -/
theorem w1_arg1 (c : Dev nD) : W1 m ρ c (Proc.devRef .tc main_arg1) = m ((c.tc : Thread nD τ).loc main_arg1) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 2. -/
theorem w1_arg2 (c : Dev nD) : W1 m ρ c (Proc.devRef .tc main_arg2) = m ((c.tc : Thread nD τ).loc main_arg2) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 3. -/
theorem w1_arg3 (c : Dev nD) : W1 m ρ c (Proc.devRef .tc main_arg3) = m ((c.tc : Thread nD τ).loc main_arg3) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 4. -/
theorem w1_arg4 (c : Dev nD) : W1 m ρ c (Proc.devRef .tc main_arg4) = m ((c.tc : Thread nD τ).loc main_arg4) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 5. -/
theorem w1_arg5 (c : Dev nD) : W1 m ρ c (Proc.devRef .tc main_arg5) = m ((c.tc : Thread nD τ).loc main_arg5) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 6. -/
theorem w1_arg6 (c : Dev nD) : W1 m ρ c (Proc.devRef .tc main_arg6) = m ((c.tc : Thread nD τ).loc main_arg6) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 8. -/
theorem w1_arg8 (c : Dev nD) : W1 m ρ c (Proc.devRef .tc main_arg8) = m ((c.tc : Thread nD τ).loc main_arg8) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 9. -/
theorem w1_arg9 (c : Dev nD) : W1 m ρ c (Proc.devRef .tc main_arg9) = m ((c.tc : Thread nD τ).loc main_arg9) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 10. -/
theorem w1_arg10 (c : Dev nD) : W1 m ρ c (Proc.devRef .tc main_arg10) = m ((c.tc : Thread nD τ).loc main_arg10) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 11. -/
theorem w1_arg11 (c : Dev nD) : W1 m ρ c (Proc.devRef .tc main_arg11) = m ((c.tc : Thread nD τ).loc main_arg11) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 12. -/
theorem w1_arg12 (c : Dev nD) : W1 m ρ c (Proc.devRef .tc main_arg12) = m ((c.tc : Thread nD τ).loc main_arg12) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 13. -/
theorem w1_arg13 (c : Dev nD) : W1 m ρ c (Proc.devRef .tc main_arg13) = m ((c.tc : Thread nD τ).loc main_arg13) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the first stretch writes argument 14. -/
theorem w1_arg14 (c : Dev nD) : W1 m ρ c (Proc.devRef .tc main_arg14) = m ((c.tc : Thread nD τ).loc main_arg14) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## After the first region -/

/-- The first region's output array is the reference's first layer. -/
theorem w2_v35 (c : Dev nD) :
    W2 m ρ c (Proc.devRef .tc main_v35) = val_main_v53 (F := Ideal) (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) := by
  refine (W2_arr m ρ c 7).trans ((Cert.KernelIdeal.Region0.final (V1 m ρ) c).trans ?_)
  show layerArr true (W1 m ρ c (Proc.devRef .tc main_v28)) (W1 m ρ c (Proc.devRef .tc main_v34)) (W1 m ρ c (Proc.devRef .tc main_arg5))
      (W1 m ρ c (Proc.devRef .tc main_v8)) (W1 m ρ c (Proc.devRef .tc main_arg8)) (W1 m ρ c (Proc.devRef .tc main_arg9))
      (W1 m ρ c (Proc.devRef .tc main_arg10)) = _
  rw [w1_v28, w1_v34, w1_arg5, w1_v8, w1_arg8, w1_arg9, w1_arg10, col_of_vec, Cert.ReferenceIdeal.RefValue.layer1]

/-- The degree column is an input of the first region: the region leaves it. -/
theorem w2_v8 (c : Dev nD) : W2 m ρ c (Proc.devRef .tc main_v8) = W1 m ρ c (Proc.devRef .tc main_v8) :=
  (W2_arr m ρ c 3).trans (((dat0 (V1 m ρ) c).arrAt_in 3 rfl _).trans (A_eq0 (V1 m ρ) c 3))

/-- `main_v1` is not an array of the first region. -/
theorem w2_v1 (c : Dev nD) : W2 m ρ c (Proc.devRef .tc main_v1) = W1 m ρ c (Proc.devRef .tc main_v1) :=
  W2_of_ne m ρ c main_v1 (by decide)

/-- `main_v3` is not an array of the first region. -/
theorem w2_v3 (c : Dev nD) : W2 m ρ c (Proc.devRef .tc main_v3) = W1 m ρ c (Proc.devRef .tc main_v3) :=
  W2_of_ne m ρ c main_v3 (by decide)

/-- `main_arg1` is not an array of the first region. -/
theorem w2_arg1 (c : Dev nD) : W2 m ρ c (Proc.devRef .tc main_arg1) = W1 m ρ c (Proc.devRef .tc main_arg1) :=
  W2_of_ne m ρ c main_arg1 (by decide)

/-- `main_arg2` is not an array of the first region. -/
theorem w2_arg2 (c : Dev nD) : W2 m ρ c (Proc.devRef .tc main_arg2) = W1 m ρ c (Proc.devRef .tc main_arg2) :=
  W2_of_ne m ρ c main_arg2 (by decide)

/-- `main_arg3` is not an array of the first region. -/
theorem w2_arg3 (c : Dev nD) : W2 m ρ c (Proc.devRef .tc main_arg3) = W1 m ρ c (Proc.devRef .tc main_arg3) :=
  W2_of_ne m ρ c main_arg3 (by decide)

/-- `main_arg4` is not an array of the first region. -/
theorem w2_arg4 (c : Dev nD) : W2 m ρ c (Proc.devRef .tc main_arg4) = W1 m ρ c (Proc.devRef .tc main_arg4) :=
  W2_of_ne m ρ c main_arg4 (by decide)

/-- `main_arg6` is not an array of the first region. -/
theorem w2_arg6 (c : Dev nD) : W2 m ρ c (Proc.devRef .tc main_arg6) = W1 m ρ c (Proc.devRef .tc main_arg6) :=
  W2_of_ne m ρ c main_arg6 (by decide)

/-- `main_arg11` is not an array of the first region. -/
theorem w2_arg11 (c : Dev nD) : W2 m ρ c (Proc.devRef .tc main_arg11) = W1 m ρ c (Proc.devRef .tc main_arg11) :=
  W2_of_ne m ρ c main_arg11 (by decide)

/-- `main_arg12` is not an array of the first region. -/
theorem w2_arg12 (c : Dev nD) : W2 m ρ c (Proc.devRef .tc main_arg12) = W1 m ρ c (Proc.devRef .tc main_arg12) :=
  W2_of_ne m ρ c main_arg12 (by decide)

/-- `main_arg13` is not an array of the first region. -/
theorem w2_arg13 (c : Dev nD) : W2 m ρ c (Proc.devRef .tc main_arg13) = W1 m ρ c (Proc.devRef .tc main_arg13) :=
  W2_of_ne m ρ c main_arg13 (by decide)

/-- `main_arg14` is not an array of the first region. -/
theorem w2_arg14 (c : Dev nD) : W2 m ρ c (Proc.devRef .tc main_arg14) = W1 m ρ c (Proc.devRef .tc main_arg14) :=
  W2_of_ne m ρ c main_arg14 (by decide)

/-! ## After the second stretch of host operations -/

set_option maxHeartbeats 4000000 in
/-- The second layer's first aggregate is the reference's. -/
theorem w3_v55 (c : Dev nD) : W3 m ρ c (Proc.devRef .tc main_v55) = val_main_v78 (F := Ideal) (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps1 (W2 m ρ c) (Proc.devRef .tc main_v55) = _
  after_results_simp
  rw [w2_v35, w2_v1, w2_v3, w2_arg1, w2_arg11, w1_v1, w1_v3, w1_arg1, w1_arg11]
  rfl

set_option maxHeartbeats 4000000 in
/-- The second layer's second aggregate is the reference's. -/
theorem w3_v61 (c : Dev nD) : W3 m ρ c (Proc.devRef .tc main_v61) = val_main_v88 (F := Ideal) (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps1 (W2 m ρ c) (Proc.devRef .tc main_v61) = _
  after_results_simp
  rw [w2_v35, w2_v1, w2_v3, w2_arg1, w2_arg11, w1_v1, w1_v3, w1_arg1, w1_arg11]
  rfl

/-- No operation of the second stretch writes `main_v35`. -/
theorem w3_v35 (c : Dev nD) : W3 m ρ c (Proc.devRef .tc main_v35) = W2 m ρ c (Proc.devRef .tc main_v35) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_v8`. -/
theorem w3_v8 (c : Dev nD) : W3 m ρ c (Proc.devRef .tc main_v8) = W2 m ρ c (Proc.devRef .tc main_v8) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg2`. -/
theorem w3_arg2 (c : Dev nD) : W3 m ρ c (Proc.devRef .tc main_arg2) = W2 m ρ c (Proc.devRef .tc main_arg2) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg3`. -/
theorem w3_arg3 (c : Dev nD) : W3 m ρ c (Proc.devRef .tc main_arg3) = W2 m ρ c (Proc.devRef .tc main_arg3) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg4`. -/
theorem w3_arg4 (c : Dev nD) : W3 m ρ c (Proc.devRef .tc main_arg4) = W2 m ρ c (Proc.devRef .tc main_arg4) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg6`. -/
theorem w3_arg6 (c : Dev nD) : W3 m ρ c (Proc.devRef .tc main_arg6) = W2 m ρ c (Proc.devRef .tc main_arg6) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg12`. -/
theorem w3_arg12 (c : Dev nD) : W3 m ρ c (Proc.devRef .tc main_arg12) = W2 m ρ c (Proc.devRef .tc main_arg12) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg13`. -/
theorem w3_arg13 (c : Dev nD) : W3 m ρ c (Proc.devRef .tc main_arg13) = W2 m ρ c (Proc.devRef .tc main_arg13) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the second stretch writes `main_arg14`. -/
theorem w3_arg14 (c : Dev nD) : W3 m ρ c (Proc.devRef .tc main_arg14) = W2 m ρ c (Proc.devRef .tc main_arg14) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## After the second region -/

/-- The reference forms the degree vector twice, by the same operations of the same argument. -/
theorem deg_twice (x0 : (⟨Cert.ReferenceIdeal.S2x1600000, .i32⟩ : BufTy).Contents (Elt Ideal)) :
    val_main_v71 (F := Ideal) x0 = val_main_v21 (F := Ideal) x0 := rfl

/-- The second region's output array is the reference's second layer. -/
theorem w4_v62 (c : Dev nD) :
    W4 m ρ c (Proc.devRef .tc main_v62) = val_main_v102 (F := Ideal) (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W4_arr m ρ c 7).trans ((Cert.KernelIdeal.Region1.final (V3 m ρ) c).trans ?_)
  show layerArr false (W3 m ρ c (Proc.devRef .tc main_v55)) (W3 m ρ c (Proc.devRef .tc main_v61)) (W3 m ρ c (Proc.devRef .tc main_v35))
      (W3 m ρ c (Proc.devRef .tc main_v8)) (W3 m ρ c (Proc.devRef .tc main_arg12)) (W3 m ρ c (Proc.devRef .tc main_arg13))
      (W3 m ρ c (Proc.devRef .tc main_arg14)) = _
  rw [w3_v55, w3_v61, w3_v35, w2_v35, w3_v8, w2_v8, w1_v8, w3_arg12, w2_arg12, w1_arg12, w3_arg13, w2_arg13, w1_arg13,
    w3_arg14, w2_arg14, w1_arg14, col_of_vec, Cert.ReferenceIdeal.RefValue.layer2, deg_twice]

/-- `main_arg2` is not an array of the second region. -/
theorem w4_arg2 (c : Dev nD) : W4 m ρ c (Proc.devRef .tc main_arg2) = W3 m ρ c (Proc.devRef .tc main_arg2) :=
  W4_of_ne m ρ c main_arg2 (by decide)

/-- `main_arg3` is not an array of the second region. -/
theorem w4_arg3 (c : Dev nD) : W4 m ρ c (Proc.devRef .tc main_arg3) = W3 m ρ c (Proc.devRef .tc main_arg3) :=
  W4_of_ne m ρ c main_arg3 (by decide)

/-- `main_arg4` is not an array of the second region. -/
theorem w4_arg4 (c : Dev nD) : W4 m ρ c (Proc.devRef .tc main_arg4) = W3 m ρ c (Proc.devRef .tc main_arg4) :=
  W4_of_ne m ρ c main_arg4 (by decide)

/-- `main_arg6` is not an array of the second region. -/
theorem w4_arg6 (c : Dev nD) : W4 m ρ c (Proc.devRef .tc main_arg6) = W3 m ρ c (Proc.devRef .tc main_arg6) :=
  W4_of_ne m ρ c main_arg6 (by decide)

/-! ## After the third stretch of host operations -/

set_option maxHeartbeats 4000000 in
/-- The gathered head rows are the reference's. -/
theorem w5_v69 (c : Dev nD) : W5 m ρ c (Proc.devRef .tc main_v69) = val_main_v109 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after hostOps2 (W4 m ρ c) (Proc.devRef .tc main_v69) = _
  after_results_simp
  rw [w4_v62, w4_arg2, w3_arg2, w2_arg2, w1_arg2]
  rfl

set_option maxHeartbeats 4000000 in
/-- The gathered relation rows are the reference's. -/
theorem w5_v83 (c : Dev nD) : W5 m ρ c (Proc.devRef .tc main_v83) = val_main_v123 (F := Ideal) (m ((c.tc : Thread nD τ).loc main_arg3)) (m ((c.tc : Thread nD τ).loc main_arg6)) := by
  show StableHlo.after hostOps2 (W4 m ρ c) (Proc.devRef .tc main_v83) = _
  after_results_simp
  rw [w4_arg3, w3_arg3, w2_arg3, w1_arg3, w4_arg6, w3_arg6, w2_arg6, w1_arg6]
  rfl

set_option maxHeartbeats 4000000 in
/-- The gathered tail rows are the reference's. -/
theorem w5_v76 (c : Dev nD) : W5 m ρ c (Proc.devRef .tc main_v76) = val_main_v116 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after hostOps2 (W4 m ρ c) (Proc.devRef .tc main_v76) = _
  after_results_simp
  rw [w4_v62, w4_arg4, w3_arg4, w2_arg4, w1_arg4]
  rfl

/-! ## After the last region and the closing reshape -/

/-- The result buffer ends at the reference's result term of the argument arrays. -/
theorem w7_v85 (c : Dev nD) :
    W7 m ρ c (Proc.devRef .tc main_v85) = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h7 : W7 m ρ c (Proc.devRef .tc main_v85)
      = shapeCast S65536 (W6 m ρ c (Proc.devRef .tc main_v84)) shapeCasts_S65536x1_S65536 := by
    show StableHlo.after hostOps3 (W6 m ρ c) (Proc.devRef .tc main_v85) = _
    after_results
    rfl
  have h6 : W6 m ρ c (Proc.devRef .tc main_v84)
      = scoreArr (W5 m ρ c (Proc.devRef .tc main_v69)) (W5 m ρ c (Proc.devRef .tc main_v83)) (W5 m ρ c (Proc.devRef .tc main_v76)) :=
    (W6_arr m ρ c 3).trans (Cert.KernelIdeal.Region2.final (V5 m ρ) c)
  rw [h7, h6, w5_v69, w5_v83, w5_v76, vec_of_col, Cert.ReferenceIdeal.RefValue.score]

end Cert.KernelIdeal.Walk

end
-- ==== Proof.lean ====
/-
  The certificate of a two-layer relational graph convolution followed by a ComplEx score, against its reference.

  Both programs gather the source rows of every edge, scale them by the edge type's two basis coefficients, and add
  them into the target node's row; both count each node's incoming edges. The kernel then computes each layer in a
  pipelined region: for a block of 2000 nodes, the two aggregates times the two basis matrices, added, divided by the
  degree (at least one), plus the node's own row times the root matrix, plus the bias — and for the first layer the
  larger of that and zero. The reference computes the same layer on whole arrays with the host's matrix product,
  starting the sum of the two basis products from an array of zeros. A last region computes, for blocks of 2048
  triples, the real part of the trilinear product of the gathered head, relation and conjugated tail rows, summed over
  the 64 complex coordinates; the reference does the same on whole arrays with a row sum that starts from zero.

  On the extended reals a change of float format is the identity, a matrix product into a zero accumulator and the
  host's matrix product are the same row-by-column sum, and zero is neutral for addition of every extended real. So
  the two programs are the same function of the argument arrays, and no finiteness of the inputs is used: the
  precondition is never opened. The idealization rewrote no operation, so there is nothing to preserve beyond the text.

  Proof/KernelRun.lean reads every buffer after the kernel's run; Proof/Body.lean the three bodies at an entry;
  Proof/Region0–2.lean each region as a whole-array function; Proof/RefValue.lean the reference's stages as the same
  functions; Proof/KernelValue.lean walks the kernel's buffers from the launch to the result.
-/
import proofs.«177431_j84275848282313_1_alg».proof.Defs
import proofs.«177431_j84275848282313_1_alg».proof.Proof.Gen.Kernel
import proofs.«177431_j84275848282313_1_alg».proof.Proof.Gen.Kernel.Skeleton
import proofs.«177431_j84275848282313_1_alg».proof.Proof.Gen.Kernel.Launch
import proofs.«177431_j84275848282313_1_alg».proof.Proof.Gen.Kernel.Points
import proofs.«177431_j84275848282313_1_alg».proof.Proof.Gen.Kernel.Frame
import proofs.«177431_j84275848282313_1_alg».proof.Proof.Gen.KernelIdeal
import proofs.«177431_j84275848282313_1_alg».proof.Proof.Gen.KernelIdeal.Skeleton
import proofs.«177431_j84275848282313_1_alg».proof.Proof.Gen.KernelIdeal.Launch
import proofs.«177431_j84275848282313_1_alg».proof.Proof.Gen.KernelIdeal.Points
import proofs.«177431_j84275848282313_1_alg».proof.Proof.Gen.KernelIdeal.Frame
import proofs.«177431_j84275848282313_1_alg».proof.Proof.Gen.ReferenceIdeal
import proofs.«177431_j84275848282313_1_alg».proof.Proof.Gen.Pre_finite_inputs
import proofs.«177431_j84275848282313_1_alg».proof.Proof.Gen.ReferenceIdeal.Run
import proofs.«177431_j84275848282313_1_alg».proof.Proof.Gen.ReferenceIdeal.Read
import proofs.«177431_j84275848282313_1_alg».proof.Proof.KernelRun
import proofs.«177431_j84275848282313_1_alg».proof.Proof.KernelValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the reference's result term of the argument arrays: the kernel by the walk
    through its seven segments, the reference by its own run, the two memories agreeing on the arguments. -/
theorem algebraic : Cert.algebraic_KernelIdeal_ReferenceIdeal := by
  intro m ρ m' ρ' _ hagree
  refine ⟨fun c => Cert.ReferenceIdeal.Read.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.Ends.ends_at_ref (F := Ideal) m ρ)
    exact ⟨(h c Cert.KernelIdeal.main_v85 (by decide)).trans (Cert.KernelIdeal.Walk.w7_v85 m ρ c),
      (h c Cert.KernelIdeal.main_arg0 (by decide)).trans (Cert.KernelIdeal.Gen.W7_main_arg0 m ρ c),
      (h c Cert.KernelIdeal.main_arg1 (by decide)).trans (Cert.KernelIdeal.Gen.W7_main_arg1 m ρ c),
      (h c Cert.KernelIdeal.main_arg2 (by decide)).trans (Cert.KernelIdeal.Gen.W7_main_arg2 m ρ c),
      (h c Cert.KernelIdeal.main_arg3 (by decide)).trans (Cert.KernelIdeal.Gen.W7_main_arg3 m ρ c),
      (h c Cert.KernelIdeal.main_arg4 (by decide)).trans (Cert.KernelIdeal.Gen.W7_main_arg4 m ρ c),
      (h c Cert.KernelIdeal.main_arg5 (by decide)).trans (Cert.KernelIdeal.Gen.W7_main_arg5 m ρ c),
      (h c Cert.KernelIdeal.main_arg6 (by decide)).trans (Cert.KernelIdeal.Gen.W7_main_arg6 m ρ c),
      (h c Cert.KernelIdeal.main_arg7 (by decide)).trans (Cert.KernelIdeal.Gen.W7_main_arg7 m ρ c),
      (h c Cert.KernelIdeal.main_arg8 (by decide)).trans (Cert.KernelIdeal.Gen.W7_main_arg8 m ρ c),
      (h c Cert.KernelIdeal.main_arg9 (by decide)).trans (Cert.KernelIdeal.Gen.W7_main_arg9 m ρ c),
      (h c Cert.KernelIdeal.main_arg10 (by decide)).trans (Cert.KernelIdeal.Gen.W7_main_arg10 m ρ c),
      (h c Cert.KernelIdeal.main_arg11 (by decide)).trans (Cert.KernelIdeal.Gen.W7_main_arg11 m ρ c),
      (h c Cert.KernelIdeal.main_arg12 (by decide)).trans (Cert.KernelIdeal.Gen.W7_main_arg12 m ρ c),
      (h c Cert.KernelIdeal.main_arg13 (by decide)).trans (Cert.KernelIdeal.Gen.W7_main_arg13 m ρ c),
      (h c Cert.KernelIdeal.main_arg14 (by decide)).trans (Cert.KernelIdeal.Gen.W7_main_arg14 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v141_eq, e0, e1, e2, e3, e4, e5, e6, e7, e8, e9, e10, e11, e12, e13, e14]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
